-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x20 : Shape := ⟨2, ![300000, 20]⟩
abbrev S20x256 : Shape := ⟨2, ![20, 256]⟩
abbrev S1x256 : Shape := ⟨2, ![1, 256]⟩
abbrev S256x10 : Shape := ⟨2, ![256, 10]⟩
abbrev S1x10 : Shape := ⟨2, ![1, 10]⟩
abbrev S_ : Shape := ⟨0, ![]⟩

class Facts : Prop where
  bcast_S_S300000x20 : S_.BroadcastsInDim S300000x20 (![] : Fin 0 → Fin S300000x20.rank)
  reducesTo_S300000x20_S_d0_1 : S300000x20.ReducesTo [0, 1] S_
  h_S_ : 0 < S_.numel
  bcast_S_S20x256 : S_.BroadcastsInDim S20x256 (![] : Fin 0 → Fin S20x256.rank)
  reducesTo_S20x256_S_d0_1 : S20x256.ReducesTo [0, 1] S_
  bcast_S_S1x256 : S_.BroadcastsInDim S1x256 (![] : Fin 0 → Fin S1x256.rank)
  reducesTo_S1x256_S_d0_1 : S1x256.ReducesTo [0, 1] S_
  bcast_S_S256x10 : S_.BroadcastsInDim S256x10 (![] : Fin 0 → Fin S256x10.rank)
  reducesTo_S256x10_S_d0_1 : S256x10.ReducesTo [0, 1] S_
  bcast_S_S1x10 : S_.BroadcastsInDim S1x10 (![] : Fin 0 → Fin S1x10.rank)
  reducesTo_S1x10_S_d0_1 : S1x10.ReducesTo [0, 1] S_

variable [Facts]

def fn_part1 {F : FTy → Type} [FloatOps F] (main_arg4 : FVec F S1x10 .f32) (main_v13 : IVec S_ 1) (main_v16 : IVec S256x10 1) : IVec S_ 1 :=
  let main_c_5 : IVec S_ 1 := constantI S_ 1 1#1
  let main_v17 : IVec S_ 1 := (fun x v => Host.reduce IntOp.andi x v reducesTo_S256x10_S_d0_1 h_S_) main_v16 main_c_5
  let main_v18 : IVec S_ 1 := andi main_v13 main_v17
  let main_v19 : FVec F S1x10 .f32 := Host.absf main_arg4
  let main_cst_6 : FVec F S_ .f32 := constant S_ .f32 0x7F800000#32
  let main_v20 : FVec F S1x10 .f32 := broadcastInDim S1x10 ![] bcast_S_S1x10 main_cst_6
  let main_v21 : IVec S1x10 1 := cmpf .olt main_v19 main_v20
  let main_c_7 : IVec S_ 1 := constantI S_ 1 1#1
  let main_v22 : IVec S_ 1 := (fun x v => Host.reduce IntOp.andi x v reducesTo_S1x10_S_d0_1 h_S_) main_v21 main_c_7
  let main_v23 : IVec S_ 1 := andi main_v18 main_v22
  main_v23

def fn {F : FTy → Type} [FloatOps F] (main_arg0 : FVec F S300000x20 .f32) (main_arg1 : FVec F S20x256 .f32) (main_arg2 : FVec F S1x256 .f32) (main_arg3 : FVec F S256x10 .f32) (main_arg4 : FVec F S1x10 .f32) : IVec S_ 1 :=
  let main_v0 : FVec F S300000x20 .f32 := Host.absf main_arg0
  let main_cst : FVec F S_ .f32 := constant S_ .f32 0x7F800000#32
  let main_v1 : FVec F S300000x20 .f32 := broadcastInDim S300000x20 ![] bcast_S_S300000x20 main_cst
  let main_v2 : IVec S300000x20 1 := cmpf .olt main_v0 main_v1
  let main_c : IVec S_ 1 := constantI S_ 1 1#1
  let main_v3 : IVec S_ 1 := (fun x v => Host.reduce IntOp.andi x v reducesTo_S300000x20_S_d0_1 h_S_) main_v2 main_c
  let main_v4 : FVec F S20x256 .f32 := Host.absf main_arg1
  let main_cst_0 : FVec F S_ .f32 := constant S_ .f32 0x7F800000#32
  let main_v5 : FVec F S20x256 .f32 := broadcastInDim S20x256 ![] bcast_S_S20x256 main_cst_0
  let main_v6 : IVec S20x256 1 := cmpf .olt main_v4 main_v5
  let main_c_1 : IVec S_ 1 := constantI S_ 1 1#1
  let main_v7 : IVec S_ 1 := (fun x v => Host.reduce IntOp.andi x v reducesTo_S20x256_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S256x10 .f32 := Host.absf main_arg3
  let main_cst_4 : FVec F S_ .f32 := constant S_ .f32 0x7F800000#32
  let main_v15 : FVec F S256x10 .f32 := broadcastInDim S256x10 ![] bcast_S_S256x10 main_cst_4
  let main_v16 : IVec S256x10 1 := cmpf .olt main_v14 main_v15
  fn_part1 (F := F) main_arg4 main_v13 main_v16
-- ==== Kernel.lean ====
abbrev S300000x20 : Shape := ⟨2, ![300000, 20]⟩
abbrev S20x256 : Shape := ⟨2, ![20, 256]⟩
abbrev S1x256 : Shape := ⟨2, ![1, 256]⟩
abbrev S256x10 : Shape := ⟨2, ![256, 10]⟩
abbrev S1x10 : Shape := ⟨2, ![1, 10]⟩
abbrev S20x300000 : Shape := ⟨2, ![20, 300000]⟩
abbrev S10x256 : Shape := ⟨2, ![10, 256]⟩
abbrev S10x300000 : Shape := ⟨2, ![10, 300000]⟩
abbrev S20x38400 : Shape := ⟨2, ![20, 38400]⟩
abbrev S10x38400 : Shape := ⟨2, ![10, 38400]⟩
abbrev S21x256 : Shape := ⟨2, ![21, 256]⟩
abbrev S256x21 : Shape := ⟨2, ![256, 21]⟩
abbrev S10x1 : Shape := ⟨2, ![10, 1]⟩
abbrev S1x3200 : Shape := ⟨2, ![1, 3200]⟩
abbrev S20x3200 : Shape := ⟨2, ![20, 3200]⟩
abbrev S21x3200 : Shape := ⟨2, ![21, 3200]⟩
abbrev S256x3200 : Shape := ⟨2, ![256, 3200]⟩
abbrev S10x3200 : Shape := ⟨2, ![10, 3200]⟩
abbrev S300000x10 : Shape := ⟨2, ![300000, 10]⟩

abbrev nBuf : Space → Nat
  | .hbm => 9
  | .vmem => 8
  | .smem => 0
  | _ => 0

abbrev bufTy : (tb : Table) → Fin (tcTables nBuf tb) → BufTy
  | .hbm, ⟨0, _⟩ => ⟨S300000x20, .f32⟩
  | .hbm, ⟨1, _⟩ => ⟨S20x256, .f32⟩
  | .hbm, ⟨2, _⟩ => ⟨S1x256, .f32⟩
  | .hbm, ⟨3, _⟩ => ⟨S256x10, .f32⟩
  | .hbm, ⟨4, _⟩ => ⟨S1x10, .f32⟩
  | .hbm, ⟨5, _⟩ => ⟨S20x300000, .f32⟩
  | .hbm, ⟨6, _⟩ => ⟨S10x256, .f32⟩
  | .hbm, ⟨7, _⟩ => ⟨S10x300000, .f32⟩
  | .hbm, ⟨8, _⟩ => ⟨S300000x10, .f32⟩
  | .local _ .vmem, ⟨0, _⟩ => ⟨S20x38400, .f32⟩
  | .local _ .vmem, ⟨1, _⟩ => ⟨S20x38400, .f32⟩
  | .local _ .vmem, ⟨2, _⟩ => ⟨S20x256, .f32⟩
  | .local _ .vmem, ⟨3, _⟩ => ⟨S1x256, .f32⟩
  | .local _ .vmem, ⟨4, _⟩ => ⟨S10x256, .f32⟩
  | .local _ .vmem, ⟨5, _⟩ => ⟨S1x10, .f32⟩
  | .local _ .vmem, ⟨6, _⟩ => ⟨S10x38400, .f32⟩
  | .local _ .vmem, ⟨7, _⟩ => ⟨S10x38400, .f32⟩
  | _, _ => ⟨S300000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S20x38400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10x38400 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S300000x20_S20x300000_1_0 : S300000x20.Transposes [1, 0] S20x300000
  transposes_S256x10_S10x256_1_0 : S256x10.Transposes [1, 0] S10x256
  inb_S20x256_S20x256_0_0 : ∀ a, (![0, 0] : Fin 2 → Nat) a + S20x256.size a ≤ S20x256.size a
  h_S20x256 : 0 < S20x256.numel
  inb_S1x256_S1x256_0_0 : ∀ a, (![0, 0] : Fin 2 → Nat) a + S1x256.size a ≤ S1x256.size a
  h_S1x256 : 0 < S1x256.numel
  concatenates_S20x256_S1x256_S21x256_d0 : Shape.Concatenates [S20x256, S1x256] S21x256 0
  transposes_S21x256_p1_0_S256x21 : S21x256.Transposes [1, 0] S256x21
  inb_S10x256_S10x256_0_0 : ∀ a, (![0, 0] : Fin 2 → Nat) a + S10x256.size a ≤ S10x256.size a
  h_S10x256 : 0 < S10x256.numel
  shapeCasts_S10x256_S10x256 : S10x256.ShapeCasts S10x256
  inb_S1x10_S1x10_0_0 : ∀ a, (![0, 0] : Fin 2 → Nat) a + S1x10.size a ≤ S1x10.size a
  h_S1x10 : 0 < S1x10.numel
  transposes_S1x10_p1_0_S10x1 : S1x10.Transposes [1, 0] S10x1
  inb_S20x38400_S20x3200_0_0 : ∀ a, (![0, 0] : Fin 2 → Nat) a + S20x3200.size a ≤ S20x38400.size a
  h_S20x3200 : 0 < S20x3200.numel
  shapeCasts_S20x3200_S20x3200 : S20x3200.ShapeCasts S20x3200
  concatenates_S20x3200_S1x3200_S21x3200_d0 : Shape.Concatenates [S20x3200, S1x3200] S21x3200 0
  broadcasts_S10x1_S10x3200 : S10x1.Broadcasts S10x3200
  inb_S10x38400_S10x3200_0_0 : ∀ a, (![0, 0] : Fin 2 → Nat) a + S10x3200.size a ≤ S10x38400.size a
  h_S10x3200 : 0 < S10x3200.numel
  inb_S20x38400_S20x3200_0_3200 : ∀ a, (![0, 3200] : Fin 2 → Nat) a + S20x3200.size a ≤ S20x38400.size a
  inb_S10x38400_S10x3200_0_3200 : ∀ a, (![0, 3200] : Fin 2 → Nat) a + S10x3200.size a ≤ S10x38400.size a
  inb_S20x38400_S20x3200_0_6400 : ∀ a, (![0, 6400] : Fin 2 → Nat) a + S20x3200.size a ≤ S20x38400.size a
  inb_S10x38400_S10x3200_0_6400 : ∀ a, (![0, 6400] : Fin 2 → Nat) a + S10x3200.size a ≤ S10x38400.size a
  inb_S20x38400_S20x3200_0_9600 : ∀ a, (![0, 9600] : Fin 2 → Nat) a + S20x3200.size a ≤ S20x38400.size a
  inb_S10x38400_S10x3200_0_9600 : ∀ a, (![0, 9600] : Fin 2 → Nat) a + S10x3200.size a ≤ S10x38400.size a
  inb_S20x38400_S20x3200_0_12800 : ∀ a, (![0, 12800] : Fin 2 → Nat) a + S20x3200.size a ≤ S20x38400.size a
  inb_S10x38400_S10x3200_0_12800 : ∀ a, (![0, 12800] : Fin 2 → Nat) a + S10x3200.size a ≤ S10x38400.size a
  inb_S20x38400_S20x3200_0_16000 : ∀ a, (![0, 16000] : Fin 2 → Nat) a + S20x3200.size a ≤ S20x38400.size a
  inb_S10x38400_S10x3200_0_16000 : ∀ a, (![0, 16000] : Fin 2 → Nat) a + S10x3200.size a ≤ S10x38400.size a
  inb_S20x38400_S20x3200_0_19200 : ∀ a, (![0, 19200] : Fin 2 → Nat) a + S20x3200.size a ≤ S20x38400.size a
  inb_S10x38400_S10x3200_0_19200 : ∀ a, (![0, 19200] : Fin 2 → Nat) a + S10x3200.size a ≤ S10x38400.size a
  inb_S20x38400_S20x3200_0_22400 : ∀ a, (![0, 22400] : Fin 2 → Nat) a + S20x3200.size a ≤ S20x38400.size a
  inb_S10x38400_S10x3200_0_22400 : ∀ a, (![0, 22400] : Fin 2 → Nat) a + S10x3200.size a ≤ S10x38400.size a
  inb_S20x38400_S20x3200_0_25600 : ∀ a, (![0, 25600] : Fin 2 → Nat) a + S20x3200.size a ≤ S20x38400.size a
  inb_S10x38400_S10x3200_0_25600 : ∀ a, (![0, 25600] : Fin 2 → Nat) a + S10x3200.size a ≤ S10x38400.size a
  inb_S20x38400_S20x3200_0_28800 : ∀ a, (![0, 28800] : Fin 2 → Nat) a + S20x3200.size a ≤ S20x38400.size a
  inb_S10x38400_S10x3200_0_28800 : ∀ a, (![0, 28800] : Fin 2 → Nat) a + S10x3200.size a ≤ S10x38400.size a
  inb_S20x38400_S20x3200_0_32000 : ∀ a, (![0, 32000] : Fin 2 → Nat) a + S20x3200.size a ≤ S20x38400.size a
  inb_S10x38400_S10x3200_0_32000 : ∀ a, (![0, 32000] : Fin 2 → Nat) a + S10x3200.size a ≤ S10x38400.size a
  inb_S20x38400_S20x3200_0_35200 : ∀ a, (![0, 35200] : Fin 2 → Nat) a + S20x3200.size a ≤ S20x38400.size a
  inb_S10x38400_S10x3200_0_35200 : ∀ a, (![0, 35200] : Fin 2 → Nat) a + S10x3200.size a ≤ S10x38400.size a
  transposes_S10x300000_S300000x10_1_0 : S10x300000.Transposes [1, 0] S300000x10
  dot_S256x21_S21x3200_S256x3200_1_0_0_1_n_n_wf : DotDims.WF S256x21 S21x3200 S256x3200 [1] [0] [0] [1] [] []
  dot_S10x256_S256x3200_S10x3200_1_0_0_1_n_n_wf : DotDims.WF S10x256 S256x3200 S10x3200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S20x38400.size a < S20x300000.size a
  hwx0_0 : ∀ i : grid0.Coords, EltTy.bits .f32 = 32 ∨ (Rect.unit (s := S20x300000) (fun a => cc0_transform_0 i a * S20x38400.size a) (fun a => (Pipeline.Clip.of (cc0_transform_0 i a) (S20x38400.size a) (S20x300000.size a)).extent (S20x38400.size a)) fun a => Pipeline.Clip.inb (Pipeline.Clip.ok_of (hstart0_0 i a))).WholeWords (EltTy.packing .f32)
  hwxs0_0 : ∀ i : grid0.Coords, EltTy.bits .f32 = 32 ∨ (Rect.unit (s := S20x38400) (fun _ => 0) (fun a => (Pipeline.Clip.of (cc0_transform_0 i a) (S20x38400.size a) (S20x300000.size a)).extent (S20x38400.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x256.size a ≤ S20x256.size a
  hwx0_1 : ∀ i : grid0.Coords, EltTy.bits .f32 = 32 ∨ (Rect.block (s := S20x256) S20x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x256.size a ≤ S10x256.size a
  hwx0_3 : ∀ i : grid0.Coords, EltTy.bits .f32 = 32 ∨ (Rect.block (s := S10x256) S10x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S10x38400.size a < S10x300000.size a
  hwx0_5 : ∀ i : grid0.Coords, EltTy.bits .f32 = 32 ∨ (Rect.unit (s := S10x300000) (fun a => cc0_transform_5 i a * S10x38400.size a) (fun a => (Pipeline.Clip.of (cc0_transform_5 i a) (S10x38400.size a) (S10x300000.size a)).extent (S10x38400.size a)) fun a => Pipeline.Clip.inb (Pipeline.Clip.ok_of (hstart0_5 i a))).WholeWords (EltTy.packing .f32)
  hwxs0_5 : ∀ i : grid0.Coords, EltTy.bits .f32 = 32 ∨ (Rect.unit (s := S10x38400) (fun _ => 0) (fun a => (Pipeline.Clip.of (cc0_transform_5 i a) (S10x38400.size a) (S10x300000.size a)).extent (S10x38400.size a)) fun a => (Nat.zero_add _).trans_le (Pipeline.Clip.extent_le (Pipeline.Clip.ok_of (hstart0_5 i a)))).WholeWords (EltTy.packing .f32)

variable [Facts₀]

def dot_S256x21_S21x3200_S256x3200_1_0_0_1_n_n : DotDims S256x21 S21x3200 S256x3200 where
  lhsContracting := [1]
  rhsContracting := [0]
  lhsNonContracting := [0]
  rhsNonContracting := [1]
  lhsBatch := []
  rhsBatch := []
  wf := dot_S256x21_S21x3200_S256x3200_1_0_0_1_n_n_wf
def dot_S10x256_S256x3200_S10x3200_1_0_0_1_n_n : DotDims S10x256 S256x3200 S10x3200 where
  lhsContracting := [1]
  rhsContracting := [0]
  lhsNonContracting := [0]
  rhsNonContracting := [1]
  lhsBatch := []
  rhsBatch := []
  wf := dot_S10x256_S256x3200_S10x3200_1_0_0_1_n_n_wf

abbrev win0_0 : Pipeline.Window sig grid0 :=
  Pipeline.Window.ofSpecClip (Memref.whole main_v0) S20x38400.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S20x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v2) S10x38400.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S300000x20 : Shape := ⟨2, ![300000, 20]⟩
abbrev S20x256 : Shape := ⟨2, ![20, 256]⟩
abbrev S1x256 : Shape := ⟨2, ![1, 256]⟩
abbrev S256x10 : Shape := ⟨2, ![256, 10]⟩
abbrev S1x10 : Shape := ⟨2, ![1, 10]⟩
abbrev S_ : Shape := ⟨0, ![]⟩
abbrev S300032x20 : Shape := ⟨2, ![300032, 20]⟩
abbrev S300032x10 : Shape := ⟨2, ![300032, 10]⟩
abbrev S1024x20 : Shape := ⟨2, ![1024, 20]⟩
abbrev S1024x10 : Shape := ⟨2, ![1024, 10]⟩
abbrev S1024x256 : Shape := ⟨2, ![1024, 256]⟩
abbrev S300000x10 : Shape := ⟨2, ![300000, 10]⟩

abbrev nBuf : Space → Nat
  | .hbm => 10
  | .vmem => 8
  | .smem => 0
  | _ => 0

abbrev bufTy : (tb : Table) → Fin (tcTables nBuf tb) → BufTy
  | .hbm, ⟨0, _⟩ => ⟨S300000x20, .f32⟩
  | .hbm, ⟨1, _⟩ => ⟨S20x256, .f32⟩
  | .hbm, ⟨2, _⟩ => ⟨S1x256, .f32⟩
  | .hbm, ⟨3, _⟩ => ⟨S256x10, .f32⟩
  | .hbm, ⟨4, _⟩ => ⟨S1x10, .f32⟩
  | .hbm, ⟨5, _⟩ => ⟨S_, .i32⟩
  | .hbm, ⟨6, _⟩ => ⟨S_, .f32⟩
  | .hbm, ⟨7, _⟩ => ⟨S300032x20, .f32⟩
  | .hbm, ⟨8, _⟩ => ⟨S300032x10, .f32⟩
  | .hbm, ⟨9, _⟩ => ⟨S300000x10, .f32⟩
  | .local _ .vmem, ⟨0, _⟩ => ⟨S1024x20, .f32⟩
  | .local _ .vmem, ⟨1, _⟩ => ⟨S1024x20, .f32⟩
  | .local _ .vmem, ⟨2, _⟩ => ⟨S20x256, .f32⟩
  | .local _ .vmem, ⟨3, _⟩ => ⟨S1x256, .f32⟩
  | .local _ .vmem, ⟨4, _⟩ => ⟨S256x10, .f32⟩
  | .local _ .vmem, ⟨5, _⟩ => ⟨S1x10, .f32⟩
  | .local _ .vmem, ⟨6, _⟩ => ⟨S1024x10, .f32⟩
  | .local _ .vmem, ⟨7, _⟩ => ⟨S1024x10, .f32⟩
  | _, _ => ⟨S300000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![293], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S300000x20_S300032x20_0320_000 : S300000x20.Pads (![0, 0] : Fin 2 → Nat) ![32, 0] ![0, 0] S300032x20
  h_S_ : 0 < S_.numel
  inb_S1024x20_S1024x20_0_0 : ∀ a, (![0, 0] : Fin 2 → Nat) a + S1024x20.size a ≤ S1024x20.size a
  h_S1024x20 : 0 < S1024x20.numel
  shapeCasts_S1024x20_S1024x20 : S1024x20.ShapeCasts S1024x20
  inb_S20x256_S20x256_0_0 : ∀ a, (![0, 0] : Fin 2 → Nat) a + S20x256.size a ≤ S20x256.size a
  h_S20x256 : 0 < S20x256.numel
  inb_S1x256_S1x256_0_0 : ∀ a, (![0, 0] : Fin 2 → Nat) a + S1x256.size a ≤ S1x256.size a
  h_S1x256 : 0 < S1x256.numel
  broadcasts_S1x256_S1024x256 : S1x256.Broadcasts S1024x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  slices_S300032x10_S300000x10_0_0 : S300032x10.Slices ![0, 0] S300000x10
  dot_S1024x20_S20x256_S1024x256_1_0_0_1_n_n_wf : DotDims.WF S1024x20 S20x256 S1024x256 [1] [0] [0] [1] [] []
  dot_S1024x256_S256x10_S1024x10_1_0_0_1_n_n_wf : DotDims.WF S1024x256 S256x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x20.size a ≤ S300032x20.size a
  hwx0_0 : ∀ i : grid0.Coords, EltTy.bits .f32 = 32 ∨ (Rect.block (s := S300032x20) S1024x20.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x256.size a ≤ S20x256.size a
  hwx0_1 : ∀ i : grid0.Coords, EltTy.bits .f32 = 32 ∨ (Rect.block (s := S20x256) S20x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x10.size a ≤ S256x10.size a
  hwx0_3 : ∀ i : grid0.Coords, EltTy.bits .f32 = 32 ∨ (Rect.block (s := S256x10) S256x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x10.size a ≤ S300032x10.size a
  hwx0_5 : ∀ i : grid0.Coords, EltTy.bits .f32 = 32 ∨ (Rect.block (s := S300032x10) S1024x10.size (cc0_transform_5 i) (hinb0_5 i)).WholeWords (EltTy.packing .f32)

variable [Facts₀]

def dot_S1024x20_S20x256_S1024x256_1_0_0_1_n_n : DotDims S1024x20 S20x256 S1024x256 where
  lhsContracting := [1]
  rhsContracting := [0]
  lhsNonContracting := [0]
  rhsNonContracting := [1]
  lhsBatch := []
  rhsBatch := []
  wf := dot_S1024x20_S20x256_S1024x256_1_0_0_1_n_n_wf
def dot_S1024x256_S256x10_S1024x10_1_0_0_1_n_n : DotDims S1024x256 S256x10 S1024x10 where
  lhsContracting := [1]
  rhsContracting := [0]
  lhsNonContracting := [0]
  rhsNonContracting := [1]
  lhsBatch := []
  rhsBatch := []
  wf := dot_S1024x256_S256x10_S1024x10_1_0_0_1_n_n_wf

abbrev win0_0 : Pipeline.Window sig grid0 :=
  Pipeline.Window.ofSpec (Memref.whole main_v0) S1024x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S20x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x10.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.BodyBits.lean ====
/-
  One grid point of the transposed perceptron: the body reads the two weight blocks and the two bias blocks whole,
  builds W = [w1; b1]ᵀ (256 × 21), and then walks the point's 38400 batch columns in twelve chunks of 3200: each
  chunk of the input block, with a row of ones appended, goes through W, the cut-off at zero, w2ᵀ and the bias, and
  is stored over the same 3200 columns of the output block. Here: what the output block holds afterwards, as the
  twelve stores laid side by side, and the body's run on six whole buffers of arbitrary contents. Nothing here
  depends on what the input block's columns hold, so the columns past the array's end in the last block need no name.
-/
import proofs.«144712_g2000002658249619_pallasbulk_1049_14_alg».proof.Proof.Gen.Kernel.Frame
import proofs.«144712_g2000002658249619_pallasbulk_1049_14_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body reads and writes through -/

/-- The whole weight and bias blocks. -/
abbrev r_w1 : Rect S20x256 := Rect.unit (s := S20x256) ![0, 0] S20x256.size inb_S20x256_S20x256_0_0
abbrev r_b1 : Rect S1x256 := Rect.unit (s := S1x256) ![0, 0] S1x256.size inb_S1x256_S1x256_0_0
abbrev r_w2 : Rect S10x256 := Rect.unit (s := S10x256) ![0, 0] S10x256.size inb_S10x256_S10x256_0_0
abbrev r_b2 : Rect S1x10 := Rect.unit (s := S1x10) ![0, 0] S1x10.size inb_S1x10_S1x10_0_0
/-- The twelve chunks of 3200 columns of the input block (all twenty rows) -/
abbrev rx_0 : Rect S20x38400 := Rect.unit (s := S20x38400) ![0, 0] S20x3200.size inb_S20x38400_S20x3200_0_0
abbrev rx_3200 : Rect S20x38400 := Rect.unit (s := S20x38400) ![0, 3200] S20x3200.size inb_S20x38400_S20x3200_0_3200
abbrev rx_6400 : Rect S20x38400 := Rect.unit (s := S20x38400) ![0, 6400] S20x3200.size inb_S20x38400_S20x3200_0_6400
abbrev rx_9600 : Rect S20x38400 := Rect.unit (s := S20x38400) ![0, 9600] S20x3200.size inb_S20x38400_S20x3200_0_9600
abbrev rx_12800 : Rect S20x38400 := Rect.unit (s := S20x38400) ![0, 12800] S20x3200.size inb_S20x38400_S20x3200_0_12800
abbrev rx_16000 : Rect S20x38400 := Rect.unit (s := S20x38400) ![0, 16000] S20x3200.size inb_S20x38400_S20x3200_0_16000
abbrev rx_19200 : Rect S20x38400 := Rect.unit (s := S20x38400) ![0, 19200] S20x3200.size inb_S20x38400_S20x3200_0_19200
abbrev rx_22400 : Rect S20x38400 := Rect.unit (s := S20x38400) ![0, 22400] S20x3200.size inb_S20x38400_S20x3200_0_22400
abbrev rx_25600 : Rect S20x38400 := Rect.unit (s := S20x38400) ![0, 25600] S20x3200.size inb_S20x38400_S20x3200_0_25600
abbrev rx_28800 : Rect S20x38400 := Rect.unit (s := S20x38400) ![0, 28800] S20x3200.size inb_S20x38400_S20x3200_0_28800
abbrev rx_32000 : Rect S20x38400 := Rect.unit (s := S20x38400) ![0, 32000] S20x3200.size inb_S20x38400_S20x3200_0_32000
abbrev rx_35200 : Rect S20x38400 := Rect.unit (s := S20x38400) ![0, 35200] S20x3200.size inb_S20x38400_S20x3200_0_35200
/-- and of the output block (all ten rows). -/
abbrev ry_0 : Rect S10x38400 := Rect.unit (s := S10x38400) ![0, 0] S10x3200.size inb_S10x38400_S10x3200_0_0
abbrev ry_3200 : Rect S10x38400 := Rect.unit (s := S10x38400) ![0, 3200] S10x3200.size inb_S10x38400_S10x3200_0_3200
abbrev ry_6400 : Rect S10x38400 := Rect.unit (s := S10x38400) ![0, 6400] S10x3200.size inb_S10x38400_S10x3200_0_6400
abbrev ry_9600 : Rect S10x38400 := Rect.unit (s := S10x38400) ![0, 9600] S10x3200.size inb_S10x38400_S10x3200_0_9600
abbrev ry_12800 : Rect S10x38400 := Rect.unit (s := S10x38400) ![0, 12800] S10x3200.size inb_S10x38400_S10x3200_0_12800
abbrev ry_16000 : Rect S10x38400 := Rect.unit (s := S10x38400) ![0, 16000] S10x3200.size inb_S10x38400_S10x3200_0_16000
abbrev ry_19200 : Rect S10x38400 := Rect.unit (s := S10x38400) ![0, 19200] S10x3200.size inb_S10x38400_S10x3200_0_19200
abbrev ry_22400 : Rect S10x38400 := Rect.unit (s := S10x38400) ![0, 22400] S10x3200.size inb_S10x38400_S10x3200_0_22400
abbrev ry_25600 : Rect S10x38400 := Rect.unit (s := S10x38400) ![0, 25600] S10x3200.size inb_S10x38400_S10x3200_0_25600
abbrev ry_28800 : Rect S10x38400 := Rect.unit (s := S10x38400) ![0, 28800] S10x3200.size inb_S10x38400_S10x3200_0_28800
abbrev ry_32000 : Rect S10x38400 := Rect.unit (s := S10x38400) ![0, 32000] S10x3200.size inb_S10x38400_S10x3200_0_32000
abbrev ry_35200 : Rect S10x38400 := Rect.unit (s := S10x38400) ![0, 35200] S10x3200.size inb_S10x38400_S10x3200_0_35200

/-! ## What the body leaves in the output block -/

/-- The output block after the body, from the five input blocks: the twelve stores, the last one first, each the
    chunk's result over its own 3200 columns. -/
def out5 (x0 : Vec F S20x38400 .f32) (x1 : Vec F S20x256 .f32) (x2 : Vec F S1x256 .f32) (x3 : Vec F S10x256 .f32) (x4 : Vec F S1x10 .f32) : Vec F S10x38400 .f32 :=
  View.canon [
    ⟨ry_35200, k0_pay3 (k0_pay4 (View.ld x1 r_w1) (View.ld x2 r_b1)) (k0_pay5 (View.ld x3 r_w2)) (k0_pay6 (View.ld x4 r_b2)) (k0_pay7 (F := F)) (View.ld x0 rx_35200)⟩,
    ⟨ry_32000, k0_pay2 (k0_pay4 (View.ld x1 r_w1) (View.ld x2 r_b1)) (k0_pay5 (View.ld x3 r_w2)) (k0_pay6 (View.ld x4 r_b2)) (k0_pay7 (F := F)) (View.ld x0 rx_32000)⟩,
    ⟨ry_28800, k0_pay1 (k0_pay4 (View.ld x1 r_w1) (View.ld x2 r_b1)) (k0_pay5 (View.ld x3 r_w2)) (k0_pay6 (View.ld x4 r_b2)) (k0_pay7 (F := F)) (View.ld x0 rx_28800)⟩,
    ⟨ry_25600, k0_pay18 (k0_pay4 (View.ld x1 r_w1) (View.ld x2 r_b1)) (k0_pay5 (View.ld x3 r_w2)) (k0_pay6 (View.ld x4 r_b2)) (k0_pay7 (F := F)) (View.ld x0 rx_25600)⟩,
    ⟨ry_22400, k0_pay17 (k0_pay4 (View.ld x1 r_w1) (View.ld x2 r_b1)) (k0_pay5 (View.ld x3 r_w2)) (k0_pay6 (View.ld x4 r_b2)) (k0_pay7 (F := F)) (View.ld x0 rx_22400)⟩,
    ⟨ry_19200, k0_pay16 (k0_pay4 (View.ld x1 r_w1) (View.ld x2 r_b1)) (k0_pay5 (View.ld x3 r_w2)) (k0_pay6 (View.ld x4 r_b2)) (k0_pay7 (F := F)) (View.ld x0 rx_19200)⟩,
    ⟨ry_16000, k0_pay15 (k0_pay5 (View.ld x3 r_w2)) (k0_pay6 (View.ld x4 r_b2)) (k0_pay14 (k0_pay4 (View.ld x1 r_w1) (View.ld x2 r_b1)) (k0_pay7 (F := F)) (View.ld x0 rx_16000)) (constant S10x3200 .f32 0x00000000#32)⟩,
    ⟨ry_12800, k0_pay13 (k0_pay4 (View.ld x1 r_w1) (View.ld x2 r_b1)) (k0_pay5 (View.ld x3 r_w2)) (k0_pay6 (View.ld x4 r_b2)) (k0_pay7 (F := F)) (View.ld x0 rx_12800)⟩,
    ⟨ry_9600, k0_pay12 (k0_pay4 (View.ld x1 r_w1) (View.ld x2 r_b1)) (k0_pay5 (View.ld x3 r_w2)) (k0_pay6 (View.ld x4 r_b2)) (k0_pay7 (F := F)) (View.ld x0 rx_9600)⟩,
    ⟨ry_6400, k0_pay11 (k0_pay4 (View.ld x1 r_w1) (View.ld x2 r_b1)) (k0_pay5 (View.ld x3 r_w2)) (k0_pay6 (View.ld x4 r_b2)) (k0_pay10 (View.ld x0 rx_6400))⟩,
    ⟨ry_3200, k0_pay9 (View.ld x1 r_w1) (View.ld x2 r_b1) (View.ld x3 r_w2) (View.ld x4 r_b2) (View.ld x0 rx_3200)⟩,
    ⟨ry_0, k0_pay8 (View.ld x1 r_w1) (View.ld x2 r_b1) (View.ld x3 r_w2) (View.ld x4 r_b2) (View.ld x0 rx_0)⟩]

/-- The twelve column ranges tile the block, so every entry of it is under one of the stores. -/
theorem cover5 (p0 p1 p2 p3 p4 p5 p6 p7 p8 p9 p10 p11 : Vec F S10x3200 .f32) (y : S10x38400.Idx) :
    ∃ pc ∈ ([⟨ry_35200, p11⟩, ⟨ry_32000, p10⟩, ⟨ry_28800, p9⟩, ⟨ry_25600, p8⟩, ⟨ry_22400, p7⟩, ⟨ry_19200, p6⟩, ⟨ry_16000, p5⟩, ⟨ry_12800, p4⟩, ⟨ry_9600, p3⟩, ⟨ry_6400, p2⟩, ⟨ry_3200, p1⟩, ⟨ry_0, p0⟩] : List (View.Piece (Elt F) S10x38400 .f32)), y ∈ pc.1.set :=
  View.cover_of_tiled [⟨ry_35200, p11⟩, ⟨ry_32000, p10⟩, ⟨ry_28800, p9⟩, ⟨ry_25600, p8⟩, ⟨ry_22400, p7⟩, ⟨ry_19200, p6⟩, ⟨ry_16000, p5⟩, ⟨ry_12800, p4⟩, ⟨ry_9600, p3⟩, ⟨ry_6400, p2⟩, ⟨ry_3200, p1⟩, ⟨ry_0, p0⟩] S10x3200.size (by rfl) y

/-! ## The body's run -/

set_option maxHeartbeats 4000000 in
/-- On six whole buffers, the five inputs at any contents and the output at anything, the body runs to the end
    leaving the inputs as they were and the output block at `out5` of them. -/
theorem sound_kernel (c : Dev nD) (E : Set ℕ) (i : grid0.Coords) (arg1 : Memref sig .tc .vmem S20x38400 .f32) (harg1 : arg1.IsWhole) (arg2 : Memref sig .tc .vmem S20x256 .f32) (harg2 : arg2.IsWhole) (arg3 : Memref sig .tc .vmem S1x256 .f32) (harg3 : arg3.IsWhole) (arg4 : Memref sig .tc .vmem S10x256 .f32) (harg4 : arg4.IsWhole) (arg5 : Memref sig .tc .vmem S1x10 .f32) (harg5 : arg5.IsWhole) (arg6 : Memref sig .tc .vmem S10x38400 .f32) (harg6 : arg6.IsWhole)
    (x0 : Vec F S20x38400 .f32) (x1 : Vec F S20x256 .f32) (x2 : Vec F S1x256 .f32) (x3 : Vec F S10x256 .f32) (x4 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5 x0 x1 x2 x3 x4)) -∗ K ⟨⟩))
      ⊢ wp frame (wpE (defs₀ (F := F)) Variants.none c none) E (cc0__mlp_t_body i arg1 harg1 arg2 harg2 arg3 harg3 arg4 harg4 arg5 harg5 arg6 harg6) K := by
  simp only [cc0__mlp_t_body_eq_skeleton]; unfold cc0__mlp_t_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _ _ _ _ _ _ _ _ _ _ _ _)

end Cert.Kernel.Body

end
-- ==== Proof.FrameBits.lean ====
/-
  The eight grid points around the body: each point fetches its 38400 columns of the transposed input (the last
  point only the 31200 columns that exist; what the rest of its buffer holds nothing says), runs the body, and writes
  the output block's columns inside the array back. Two sets of proof data over the same body run. The first says
  nothing of the output block and serves the frame: the arguments end as launched, at any reading of the floats.
  The second names the output block as the body's function of the input blocks, which asks that the columns inside
  the array of the output do not depend on the input columns outside it; that independence is a hypothesis here,
  discharged where the floats are read as extended reals.
-/
import proofs.«144712_g2000002658249619_pallasbulk_1049_14_alg».proof.Proof.BodyBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input block of a point, filled out -/

/-- The transposed input's block at point `t`: its columns inside the array, and the zero word on the columns past
    the array's end (a choice; nothing reads it). -/
def xblk (c : Dev nD) (t : Fin cfg0.N) : S20x38400.Idx → Elt F .f32 :=
  win0_0.fill (grid0.coords t) (fun _ => Scalar.ofBits .f32 0#32) (iblk m c 0 t)

/-- Only the output window is left unnamed by the frame's data. -/
def forgets : Fin 6 → Bool := fun | 0 => false | 1 => false | 2 => false | 3 => false | 4 => false | 5 => true | ⟨_ + 6, h⟩ => absurd h (Nat.not_lt.2 (Nat.le_add_left _ _))

/-! ## Proof data that names the inputs only -/

def datsF (_ : Fin 1) (c : Dev nD) : Dat τ (Elt F) Unit ℕ (UR sig nD τ) ℕ cfg0 c where
  A w := V m c (Pipeline.arrRef spec0 w)
  after w t := match w with
    | ⟨0, _⟩ => xblk m c t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

theorem AF_eq (c : Dev nD) (w : Fin cfg0.W) : (datsF m 0 c).A w = V m c (Pipeline.arrRef spec0 w) := by
  dsimp only [datsF]

theorem afterF_0 (c : Dev nD) (t : Fin cfg0.N) : (datsF m 0 c).after 0 t = xblk m c t := by dsimp only [datsF]
theorem afterF_1 (c : Dev nD) (t : Fin cfg0.N) : (datsF m 0 c).after 1 t = iblk m c 1 t := by dsimp only [datsF]
theorem afterF_2 (c : Dev nD) (t : Fin cfg0.N) : (datsF m 0 c).after 2 t = iblk m c 2 t := by dsimp only [datsF]
theorem afterF_3 (c : Dev nD) (t : Fin cfg0.N) : (datsF m 0 c).after 3 t = iblk m c 3 t := by dsimp only [datsF]
theorem afterF_4 (c : Dev nD) (t : Fin cfg0.N) : (datsF m 0 c).after 4 t = iblk m c 4 t := by dsimp only [datsF]

/-- The input block's buffer was just fetched at every point: its columns inside the array, anything elsewhere. -/
theorem beforeF_0 (c : Dev nD) (t : Fin cfg0.N) (d) :
    (datsF m 0 c).before 0 t d = win0_0.fill (grid0.coords t) d (iblk m c 0 t) := by
  unfold Dat.before; rw [if_pos (fetch0_0 t)]; rfl
/-- The weights' and biases' buffers hold their whole blocks at every point. -/
theorem beforeF_1 (c : Dev nD) (t : Fin cfg0.N) (d) : (datsF m 0 c).before 1 t d = iblk m c 1 t :=
  before0_1_of m (datsF m 0 c) (AF_eq m c 1) (afterF_1 m c) t d
theorem beforeF_2 (c : Dev nD) (t : Fin cfg0.N) (d) : (datsF m 0 c).before 2 t d = iblk m c 2 t :=
  before0_2_of m (datsF m 0 c) (AF_eq m c 2) (afterF_2 m c) t d
theorem beforeF_3 (c : Dev nD) (t : Fin cfg0.N) (d) : (datsF m 0 c).before 3 t d = iblk m c 3 t :=
  before0_3_of m (datsF m 0 c) (AF_eq m c 3) (afterF_3 m c) t d
theorem beforeF_4 (c : Dev nD) (t : Fin cfg0.N) (d) : (datsF m 0 c).before 4 t d = iblk m c 4 t :=
  before0_4_of m (datsF m 0 c) (AF_eq m c 4) (afterF_4 m c) t d

/-- What the body is called with at point `t`, window by window (the output's buffer at anything), -/
def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare ((datsF m 0 c).before 1 t d))
    ∗ (∃ d, owns (c : Thread nD τ) (st0_2 t) fullShare ((datsF m 0 c).before 2 t d))
    ∗ (∃ d, owns (c : Thread nD τ) (st0_3 t) fullShare ((datsF m 0 c).before 3 t d))
    ∗ (∃ d, owns (c : Thread nD τ) (st0_4 t) fullShare ((datsF m 0 c).before 4 t d))
    ∗ (∃ X, owns (c : Thread nD τ) (st0_5 t) fullShare X))

/-- and what it returns: the input block's buffer stated on the columns inside the array only. -/
def bodyPostF (c : Dev nD) (t : Fin cfg0.N) : sProp 𝕄 :=
  iprop((datsF m 0 c).Φ t.succ ∗ (datsF m 0 c).owesAt () t.succ
    ∗ (∃ d, owns (c : Thread nD τ) (st0_0 t) fullShare ((cfg0.win 0).fill (cfg0.grid.coords t) d ((cfg0.win 0).cut (cfg0.grid.coords t) ((datsF m 0 c).after 0 t))))
    ∗ owns (c : Thread nD τ) (st0_1 t) fullShare ((datsF m 0 c).after 1 t)
    ∗ owns (c : Thread nD τ) (st0_2 t) fullShare ((datsF m 0 c).after 2 t)
    ∗ owns (c : Thread nD τ) (st0_3 t) fullShare ((datsF m 0 c).after 3 t)
    ∗ owns (c : Thread nD τ) (st0_4 t) fullShare ((datsF m 0 c).after 4 t)
    ∗ (∃ X, owns (c : Thread nD τ) (st0_5 t) fullShare X))

theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, beforeF_3, beforeF_4]
  rw [show (datsF m 0 c).Φ t.succ = (datsF m 0 c).Φ t.castSucc from rfl,
    show (datsF m 0 c).owesAt () t.succ = (datsF m 0 c).owesAt () t.castSucc from rfl,
    afterF_0, afterF_1, afterF_2, afterF_3, afterF_4]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    have hx : (cfg0.win 0).cut (cfg0.grid.coords t) (xblk m c t) = iblk m c 0 t := win0_0.cut_fill _ _ _
    rw [hx]; iexact H0
  isplitl [H1]; · iexact H1
  isplitl [H2]; · iexact H2
  isplitl [H3]; · iexact H3
  isplitl [H4]; · iexact H4
  iexists _; iexact H5

theorem body_obligationF (c : Dev nD) :
    BodyObligationLoose (datsF (F := F) m 0 c) (defs₀ (F := F)) Variants.none () Set.univ forgets := fun t => by
  rw [bigSep_W0, bigSep_W0]
  exact sound_bodyF m c t

/-! ## The run and the frame -/

/-- The one host operation after the region writes the result buffer only. -/
theorem tail_writes : ∀ ops ∈ ([hostOps1] : List (List (HloOp τ sig (Elt F)))), ∀ op ∈ ops,
    ∀ b : Ref sig .tc, Proc.devRef .tc b ∈ op.writes → b ∈ ({main_v3} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb ⊢
  exact Proc.devRef_injective (τ := τ) _ hb

set_option backward.isDefEq.respectTransparency.types false in
/-- Every weakly fair execution of the program terminates; the weights' and biases' arrays end as the region found
    them, and every buffer the region does not stage, but the result, as it was at the region's entry. -/
theorem run_mainF : θ_run defs (onTc (τ := τ) (main (F := F))) (s₀ m ρ)
    (Pipeline.RDat.FramePostR (cfgs 0) (fun c => (datsF m 0 c).toRForget forgets) {main_v3} (V m)) :=
  Pipeline.RDat.θ_run_frame_around_T cfgs (0 : Fin 1) launch0 defs₀ Variants.none (fun c => (datsF m 0 c).toRForget forgets) {main_v3} m ρ main
    (hbody := fun c => (body_obligationF m c).toRForget)
    (hshare := fun c => ((datsF m 0 c).toRForget forgets).share_full fun _ => rfl)
    (howed := fun _ _ => rfl) (V₀ := V0 m) (opss := [hostOps1]) (hsub := sfx_sub) (hfresh := sfx_fresh) (hkeep := sfx_keeps)
    (hT := tail_writes) (hmain := hmain m Variants.none) (hA := AF_eq m) (hΦ := fun _ _ => rfl)

/-- The five argument arrays end as launched, at any reading of the floats. -/
theorem frameF : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨
      ((h c).2 main_arg0 (Finset.mem_sdiff.mpr ⟨Pipeline.mem_restRefs_of main_arg0 (by decide) (by decide), by decide⟩)).trans (V_main_arg0 m c),
      (((datsF m 0 c).toRForget_arrAt_iff (fgt := forgets) (w := 1) rfl _ _).mp ((h c).1 1)).trans
        (((datsF m 0 c).arrAt_in 1 rfl _).trans ((AF_eq m c 1).trans (V_main_arg1 m c))),
      (((datsF m 0 c).toRForget_arrAt_iff (fgt := forgets) (w := 2) rfl _ _).mp ((h c).1 2)).trans
        (((datsF m 0 c).arrAt_in 2 rfl _).trans ((AF_eq m c 2).trans (V_main_arg2 m c))),
      ((h c).2 main_arg3 (Finset.mem_sdiff.mpr ⟨Pipeline.mem_restRefs_of main_arg3 (by decide) (by decide), by decide⟩)).trans (V_main_arg3 m c),
      (((datsF m 0 c).toRForget_arrAt_iff (fgt := forgets) (w := 4) rfl _ _).mp ((h c).1 4)).trans
        (((datsF m 0 c).arrAt_in 4 rfl _).trans ((AF_eq m c 4).trans (V_main_arg4 m c)))⟩) (run_mainF m ρ)

end Cert.Kernel.Body

end
-- ==== Proof.BodyIdeal.lean ====
/-
  One grid point of the transposed perceptron: the body reads the two weight blocks and the two bias blocks whole,
  builds W = [w1; b1]ᵀ (256 × 21), and then walks the point's 38400 batch columns in twelve chunks of 3200: each
  chunk of the input block, with a row of ones appended, goes through W, the cut-off at zero, w2ᵀ and the bias, and
  is stored over the same 3200 columns of the output block. Here: what the output block holds afterwards, as the
  twelve stores laid side by side, and the body's run on six whole buffers of arbitrary contents. Nothing here
  depends on what the input block's columns hold, so the columns past the array's end in the last block need no name.
-/
import proofs.«144712_g2000002658249619_pallasbulk_1049_14_alg».proof.Proof.Gen.KernelIdeal.Frame
import proofs.«144712_g2000002658249619_pallasbulk_1049_14_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body reads and writes through -/

/-- The whole weight and bias blocks. -/
abbrev r_w1 : Rect S20x256 := Rect.unit (s := S20x256) ![0, 0] S20x256.size inb_S20x256_S20x256_0_0
abbrev r_b1 : Rect S1x256 := Rect.unit (s := S1x256) ![0, 0] S1x256.size inb_S1x256_S1x256_0_0
abbrev r_w2 : Rect S10x256 := Rect.unit (s := S10x256) ![0, 0] S10x256.size inb_S10x256_S10x256_0_0
abbrev r_b2 : Rect S1x10 := Rect.unit (s := S1x10) ![0, 0] S1x10.size inb_S1x10_S1x10_0_0
/-- The twelve chunks of 3200 columns of the input block (all twenty rows) -/
abbrev rx_0 : Rect S20x38400 := Rect.unit (s := S20x38400) ![0, 0] S20x3200.size inb_S20x38400_S20x3200_0_0
abbrev rx_3200 : Rect S20x38400 := Rect.unit (s := S20x38400) ![0, 3200] S20x3200.size inb_S20x38400_S20x3200_0_3200
abbrev rx_6400 : Rect S20x38400 := Rect.unit (s := S20x38400) ![0, 6400] S20x3200.size inb_S20x38400_S20x3200_0_6400
abbrev rx_9600 : Rect S20x38400 := Rect.unit (s := S20x38400) ![0, 9600] S20x3200.size inb_S20x38400_S20x3200_0_9600
abbrev rx_12800 : Rect S20x38400 := Rect.unit (s := S20x38400) ![0, 12800] S20x3200.size inb_S20x38400_S20x3200_0_12800
abbrev rx_16000 : Rect S20x38400 := Rect.unit (s := S20x38400) ![0, 16000] S20x3200.size inb_S20x38400_S20x3200_0_16000
abbrev rx_19200 : Rect S20x38400 := Rect.unit (s := S20x38400) ![0, 19200] S20x3200.size inb_S20x38400_S20x3200_0_19200
abbrev rx_22400 : Rect S20x38400 := Rect.unit (s := S20x38400) ![0, 22400] S20x3200.size inb_S20x38400_S20x3200_0_22400
abbrev rx_25600 : Rect S20x38400 := Rect.unit (s := S20x38400) ![0, 25600] S20x3200.size inb_S20x38400_S20x3200_0_25600
abbrev rx_28800 : Rect S20x38400 := Rect.unit (s := S20x38400) ![0, 28800] S20x3200.size inb_S20x38400_S20x3200_0_28800
abbrev rx_32000 : Rect S20x38400 := Rect.unit (s := S20x38400) ![0, 32000] S20x3200.size inb_S20x38400_S20x3200_0_32000
abbrev rx_35200 : Rect S20x38400 := Rect.unit (s := S20x38400) ![0, 35200] S20x3200.size inb_S20x38400_S20x3200_0_35200
/-- and of the output block (all ten rows). -/
abbrev ry_0 : Rect S10x38400 := Rect.unit (s := S10x38400) ![0, 0] S10x3200.size inb_S10x38400_S10x3200_0_0
abbrev ry_3200 : Rect S10x38400 := Rect.unit (s := S10x38400) ![0, 3200] S10x3200.size inb_S10x38400_S10x3200_0_3200
abbrev ry_6400 : Rect S10x38400 := Rect.unit (s := S10x38400) ![0, 6400] S10x3200.size inb_S10x38400_S10x3200_0_6400
abbrev ry_9600 : Rect S10x38400 := Rect.unit (s := S10x38400) ![0, 9600] S10x3200.size inb_S10x38400_S10x3200_0_9600
abbrev ry_12800 : Rect S10x38400 := Rect.unit (s := S10x38400) ![0, 12800] S10x3200.size inb_S10x38400_S10x3200_0_12800
abbrev ry_16000 : Rect S10x38400 := Rect.unit (s := S10x38400) ![0, 16000] S10x3200.size inb_S10x38400_S10x3200_0_16000
abbrev ry_19200 : Rect S10x38400 := Rect.unit (s := S10x38400) ![0, 19200] S10x3200.size inb_S10x38400_S10x3200_0_19200
abbrev ry_22400 : Rect S10x38400 := Rect.unit (s := S10x38400) ![0, 22400] S10x3200.size inb_S10x38400_S10x3200_0_22400
abbrev ry_25600 : Rect S10x38400 := Rect.unit (s := S10x38400) ![0, 25600] S10x3200.size inb_S10x38400_S10x3200_0_25600
abbrev ry_28800 : Rect S10x38400 := Rect.unit (s := S10x38400) ![0, 28800] S10x3200.size inb_S10x38400_S10x3200_0_28800
abbrev ry_32000 : Rect S10x38400 := Rect.unit (s := S10x38400) ![0, 32000] S10x3200.size inb_S10x38400_S10x3200_0_32000
abbrev ry_35200 : Rect S10x38400 := Rect.unit (s := S10x38400) ![0, 35200] S10x3200.size inb_S10x38400_S10x3200_0_35200

/-! ## What the body leaves in the output block -/

/-- The output block after the body, from the five input blocks: the twelve stores, the last one first, each the
    chunk's result over its own 3200 columns. -/
def out5 (x0 : Vec F S20x38400 .f32) (x1 : Vec F S20x256 .f32) (x2 : Vec F S1x256 .f32) (x3 : Vec F S10x256 .f32) (x4 : Vec F S1x10 .f32) : Vec F S10x38400 .f32 :=
  View.canon [
    ⟨ry_35200, k0_pay3 (k0_pay4 (View.ld x1 r_w1) (View.ld x2 r_b1)) (k0_pay5 (View.ld x3 r_w2)) (k0_pay6 (View.ld x4 r_b2)) (k0_pay7 (F := F)) (View.ld x0 rx_35200)⟩,
    ⟨ry_32000, k0_pay2 (k0_pay4 (View.ld x1 r_w1) (View.ld x2 r_b1)) (k0_pay5 (View.ld x3 r_w2)) (k0_pay6 (View.ld x4 r_b2)) (k0_pay7 (F := F)) (View.ld x0 rx_32000)⟩,
    ⟨ry_28800, k0_pay1 (k0_pay4 (View.ld x1 r_w1) (View.ld x2 r_b1)) (k0_pay5 (View.ld x3 r_w2)) (k0_pay6 (View.ld x4 r_b2)) (k0_pay7 (F := F)) (View.ld x0 rx_28800)⟩,
    ⟨ry_25600, k0_pay18 (k0_pay4 (View.ld x1 r_w1) (View.ld x2 r_b1)) (k0_pay5 (View.ld x3 r_w2)) (k0_pay6 (View.ld x4 r_b2)) (k0_pay7 (F := F)) (View.ld x0 rx_25600)⟩,
    ⟨ry_22400, k0_pay17 (k0_pay4 (View.ld x1 r_w1) (View.ld x2 r_b1)) (k0_pay5 (View.ld x3 r_w2)) (k0_pay6 (View.ld x4 r_b2)) (k0_pay7 (F := F)) (View.ld x0 rx_22400)⟩,
    ⟨ry_19200, k0_pay16 (k0_pay4 (View.ld x1 r_w1) (View.ld x2 r_b1)) (k0_pay5 (View.ld x3 r_w2)) (k0_pay6 (View.ld x4 r_b2)) (k0_pay7 (F := F)) (View.ld x0 rx_19200)⟩,
    ⟨ry_16000, k0_pay15 (k0_pay5 (View.ld x3 r_w2)) (k0_pay6 (View.ld x4 r_b2)) (k0_pay14 (k0_pay4 (View.ld x1 r_w1) (View.ld x2 r_b1)) (k0_pay7 (F := F)) (View.ld x0 rx_16000)) (constant S10x3200 .f32 0x00000000#32)⟩,
    ⟨ry_12800, k0_pay13 (k0_pay4 (View.ld x1 r_w1) (View.ld x2 r_b1)) (k0_pay5 (View.ld x3 r_w2)) (k0_pay6 (View.ld x4 r_b2)) (k0_pay7 (F := F)) (View.ld x0 rx_12800)⟩,
    ⟨ry_9600, k0_pay12 (k0_pay4 (View.ld x1 r_w1) (View.ld x2 r_b1)) (k0_pay5 (View.ld x3 r_w2)) (k0_pay6 (View.ld x4 r_b2)) (k0_pay7 (F := F)) (View.ld x0 rx_9600)⟩,
    ⟨ry_6400, k0_pay11 (k0_pay4 (View.ld x1 r_w1) (View.ld x2 r_b1)) (k0_pay5 (View.ld x3 r_w2)) (k0_pay6 (View.ld x4 r_b2)) (k0_pay10 (View.ld x0 rx_6400))⟩,
    ⟨ry_3200, k0_pay9 (View.ld x1 r_w1) (View.ld x2 r_b1) (View.ld x3 r_w2) (View.ld x4 r_b2) (View.ld x0 rx_3200)⟩,
    ⟨ry_0, k0_pay8 (View.ld x1 r_w1) (View.ld x2 r_b1) (View.ld x3 r_w2) (View.ld x4 r_b2) (View.ld x0 rx_0)⟩]

/-- The twelve column ranges tile the block, so every entry of it is under one of the stores. -/
theorem cover5 (p0 p1 p2 p3 p4 p5 p6 p7 p8 p9 p10 p11 : Vec F S10x3200 .f32) (y : S10x38400.Idx) :
    ∃ pc ∈ ([⟨ry_35200, p11⟩, ⟨ry_32000, p10⟩, ⟨ry_28800, p9⟩, ⟨ry_25600, p8⟩, ⟨ry_22400, p7⟩, ⟨ry_19200, p6⟩, ⟨ry_16000, p5⟩, ⟨ry_12800, p4⟩, ⟨ry_9600, p3⟩, ⟨ry_6400, p2⟩, ⟨ry_3200, p1⟩, ⟨ry_0, p0⟩] : List (View.Piece (Elt F) S10x38400 .f32)), y ∈ pc.1.set :=
  View.cover_of_tiled [⟨ry_35200, p11⟩, ⟨ry_32000, p10⟩, ⟨ry_28800, p9⟩, ⟨ry_25600, p8⟩, ⟨ry_22400, p7⟩, ⟨ry_19200, p6⟩, ⟨ry_16000, p5⟩, ⟨ry_12800, p4⟩, ⟨ry_9600, p3⟩, ⟨ry_6400, p2⟩, ⟨ry_3200, p1⟩, ⟨ry_0, p0⟩] S10x3200.size (by rfl) y

/-! ## The body's run -/

set_option maxHeartbeats 4000000 in
/-- On six whole buffers, the five inputs at any contents and the output at anything, the body runs to the end
    leaving the inputs as they were and the output block at `out5` of them. -/
theorem sound_kernel (c : Dev nD) (E : Set ℕ) (i : grid0.Coords) (arg1 : Memref sig .tc .vmem S20x38400 .f32) (harg1 : arg1.IsWhole) (arg2 : Memref sig .tc .vmem S20x256 .f32) (harg2 : arg2.IsWhole) (arg3 : Memref sig .tc .vmem S1x256 .f32) (harg3 : arg3.IsWhole) (arg4 : Memref sig .tc .vmem S10x256 .f32) (harg4 : arg4.IsWhole) (arg5 : Memref sig .tc .vmem S1x10 .f32) (harg5 : arg5.IsWhole) (arg6 : Memref sig .tc .vmem S10x38400 .f32) (harg6 : arg6.IsWhole)
    (x0 : Vec F S20x38400 .f32) (x1 : Vec F S20x256 .f32) (x2 : Vec F S1x256 .f32) (x3 : Vec F S10x256 .f32) (x4 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5 x0 x1 x2 x3 x4)) -∗ K ⟨⟩))
      ⊢ wp frame (wpE (defs₀ (F := F)) Variants.none c none) E (cc0__mlp_t_body i arg1 harg1 arg2 harg2 arg3 harg3 arg4 harg4 arg5 harg5 arg6 harg6) K := by
  simp only [cc0__mlp_t_body_eq_skeleton]; unfold cc0__mlp_t_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _ _ _ _ _ _ _ _ _ _ _ _)

end Cert.KernelIdeal.Body

end
-- ==== Proof.FrameIdeal.lean ====
/-
  The eight grid points around the body: each point fetches its 38400 columns of the transposed input (the last
  point only the 31200 columns that exist; what the rest of its buffer holds nothing says), runs the body, and writes
  the output block's columns inside the array back. Two sets of proof data over the same body run. The first says
  nothing of the output block and serves the frame: the arguments end as launched, at any reading of the floats.
  The second names the output block as the body's function of the input blocks, which asks that the columns inside
  the array of the output do not depend on the input columns outside it; that independence is a hypothesis here,
  discharged where the floats are read as extended reals.
-/
import proofs.«144712_g2000002658249619_pallasbulk_1049_14_alg».proof.Proof.BodyIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input block of a point, filled out -/

/-- The transposed input's block at point `t`: its columns inside the array, and the zero word on the columns past
    the array's end (a choice; nothing reads it). -/
def xblk (c : Dev nD) (t : Fin cfg0.N) : S20x38400.Idx → Elt F .f32 :=
  win0_0.fill (grid0.coords t) (fun _ => Scalar.ofBits .f32 0#32) (iblk m c 0 t)

/-- Only the output window is left unnamed by the frame's data. -/
def forgets : Fin 6 → Bool := fun | 0 => false | 1 => false | 2 => false | 3 => false | 4 => false | 5 => true | ⟨_ + 6, h⟩ => absurd h (Nat.not_lt.2 (Nat.le_add_left _ _))

/-! ## Proof data that names the inputs only -/

def datsF (_ : Fin 1) (c : Dev nD) : Dat τ (Elt F) Unit ℕ (UR sig nD τ) ℕ cfg0 c where
  A w := V m c (Pipeline.arrRef spec0 w)
  after w t := match w with
    | ⟨0, _⟩ => xblk m c t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

theorem AF_eq (c : Dev nD) (w : Fin cfg0.W) : (datsF m 0 c).A w = V m c (Pipeline.arrRef spec0 w) := by
  dsimp only [datsF]

theorem afterF_0 (c : Dev nD) (t : Fin cfg0.N) : (datsF m 0 c).after 0 t = xblk m c t := by dsimp only [datsF]
theorem afterF_1 (c : Dev nD) (t : Fin cfg0.N) : (datsF m 0 c).after 1 t = iblk m c 1 t := by dsimp only [datsF]
theorem afterF_2 (c : Dev nD) (t : Fin cfg0.N) : (datsF m 0 c).after 2 t = iblk m c 2 t := by dsimp only [datsF]
theorem afterF_3 (c : Dev nD) (t : Fin cfg0.N) : (datsF m 0 c).after 3 t = iblk m c 3 t := by dsimp only [datsF]
theorem afterF_4 (c : Dev nD) (t : Fin cfg0.N) : (datsF m 0 c).after 4 t = iblk m c 4 t := by dsimp only [datsF]

/-- The input block's buffer was just fetched at every point: its columns inside the array, anything elsewhere. -/
theorem beforeF_0 (c : Dev nD) (t : Fin cfg0.N) (d) :
    (datsF m 0 c).before 0 t d = win0_0.fill (grid0.coords t) d (iblk m c 0 t) := by
  unfold Dat.before; rw [if_pos (fetch0_0 t)]; rfl
/-- The weights' and biases' buffers hold their whole blocks at every point. -/
theorem beforeF_1 (c : Dev nD) (t : Fin cfg0.N) (d) : (datsF m 0 c).before 1 t d = iblk m c 1 t :=
  before0_1_of m (datsF m 0 c) (AF_eq m c 1) (afterF_1 m c) t d
theorem beforeF_2 (c : Dev nD) (t : Fin cfg0.N) (d) : (datsF m 0 c).before 2 t d = iblk m c 2 t :=
  before0_2_of m (datsF m 0 c) (AF_eq m c 2) (afterF_2 m c) t d
theorem beforeF_3 (c : Dev nD) (t : Fin cfg0.N) (d) : (datsF m 0 c).before 3 t d = iblk m c 3 t :=
  before0_3_of m (datsF m 0 c) (AF_eq m c 3) (afterF_3 m c) t d
theorem beforeF_4 (c : Dev nD) (t : Fin cfg0.N) (d) : (datsF m 0 c).before 4 t d = iblk m c 4 t :=
  before0_4_of m (datsF m 0 c) (AF_eq m c 4) (afterF_4 m c) t d

/-- What the body is called with at point `t`, window by window (the output's buffer at anything), -/
def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare ((datsF m 0 c).before 1 t d))
    ∗ (∃ d, owns (c : Thread nD τ) (st0_2 t) fullShare ((datsF m 0 c).before 2 t d))
    ∗ (∃ d, owns (c : Thread nD τ) (st0_3 t) fullShare ((datsF m 0 c).before 3 t d))
    ∗ (∃ d, owns (c : Thread nD τ) (st0_4 t) fullShare ((datsF m 0 c).before 4 t d))
    ∗ (∃ X, owns (c : Thread nD τ) (st0_5 t) fullShare X))

/-- and what it returns: the input block's buffer stated on the columns inside the array only. -/
def bodyPostF (c : Dev nD) (t : Fin cfg0.N) : sProp 𝕄 :=
  iprop((datsF m 0 c).Φ t.succ ∗ (datsF m 0 c).owesAt () t.succ
    ∗ (∃ d, owns (c : Thread nD τ) (st0_0 t) fullShare ((cfg0.win 0).fill (cfg0.grid.coords t) d ((cfg0.win 0).cut (cfg0.grid.coords t) ((datsF m 0 c).after 0 t))))
    ∗ owns (c : Thread nD τ) (st0_1 t) fullShare ((datsF m 0 c).after 1 t)
    ∗ owns (c : Thread nD τ) (st0_2 t) fullShare ((datsF m 0 c).after 2 t)
    ∗ owns (c : Thread nD τ) (st0_3 t) fullShare ((datsF m 0 c).after 3 t)
    ∗ owns (c : Thread nD τ) (st0_4 t) fullShare ((datsF m 0 c).after 4 t)
    ∗ (∃ X, owns (c : Thread nD τ) (st0_5 t) fullShare X))

theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, beforeF_3, beforeF_4]
  rw [show (datsF m 0 c).Φ t.succ = (datsF m 0 c).Φ t.castSucc from rfl,
    show (datsF m 0 c).owesAt () t.succ = (datsF m 0 c).owesAt () t.castSucc from rfl,
    afterF_0, afterF_1, afterF_2, afterF_3, afterF_4]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    have hx : (cfg0.win 0).cut (cfg0.grid.coords t) (xblk m c t) = iblk m c 0 t := win0_0.cut_fill _ _ _
    rw [hx]; iexact H0
  isplitl [H1]; · iexact H1
  isplitl [H2]; · iexact H2
  isplitl [H3]; · iexact H3
  isplitl [H4]; · iexact H4
  iexists _; iexact H5

theorem body_obligationF (c : Dev nD) :
    BodyObligationLoose (datsF (F := F) m 0 c) (defs₀ (F := F)) Variants.none () Set.univ forgets := fun t => by
  rw [bigSep_W0, bigSep_W0]
  exact sound_bodyF m c t

/-! ## The run and the frame -/

/-- The one host operation after the region writes the result buffer only. -/
theorem tail_writes : ∀ ops ∈ ([hostOps1] : List (List (HloOp τ sig (Elt F)))), ∀ op ∈ ops,
    ∀ b : Ref sig .tc, Proc.devRef .tc b ∈ op.writes → b ∈ ({main_v3} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb ⊢
  exact Proc.devRef_injective (τ := τ) _ hb

set_option backward.isDefEq.respectTransparency.types false in
/-- Every weakly fair execution of the program terminates; the weights' and biases' arrays end as the region found
    them, and every buffer the region does not stage, but the result, as it was at the region's entry. -/
theorem run_mainF : θ_run defs (onTc (τ := τ) (main (F := F))) (s₀ m ρ)
    (Pipeline.RDat.FramePostR (cfgs 0) (fun c => (datsF m 0 c).toRForget forgets) {main_v3} (V m)) :=
  Pipeline.RDat.θ_run_frame_around_T cfgs (0 : Fin 1) launch0 defs₀ Variants.none (fun c => (datsF m 0 c).toRForget forgets) {main_v3} m ρ main
    (hbody := fun c => (body_obligationF m c).toRForget)
    (hshare := fun c => ((datsF m 0 c).toRForget forgets).share_full fun _ => rfl)
    (howed := fun _ _ => rfl) (V₀ := V0 m) (opss := [hostOps1]) (hsub := sfx_sub) (hfresh := sfx_fresh) (hkeep := sfx_keeps)
    (hT := tail_writes) (hmain := hmain m Variants.none) (hA := AF_eq m) (hΦ := fun _ _ => rfl)

/-- The five argument arrays end as launched, at any reading of the floats. -/
theorem frameF : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨
      ((h c).2 main_arg0 (Finset.mem_sdiff.mpr ⟨Pipeline.mem_restRefs_of main_arg0 (by decide) (by decide), by decide⟩)).trans (V_main_arg0 m c),
      (((datsF m 0 c).toRForget_arrAt_iff (fgt := forgets) (w := 1) rfl _ _).mp ((h c).1 1)).trans
        (((datsF m 0 c).arrAt_in 1 rfl _).trans ((AF_eq m c 1).trans (V_main_arg1 m c))),
      (((datsF m 0 c).toRForget_arrAt_iff (fgt := forgets) (w := 2) rfl _ _).mp ((h c).1 2)).trans
        (((datsF m 0 c).arrAt_in 2 rfl _).trans ((AF_eq m c 2).trans (V_main_arg2 m c))),
      ((h c).2 main_arg3 (Finset.mem_sdiff.mpr ⟨Pipeline.mem_restRefs_of main_arg3 (by decide) (by decide), by decide⟩)).trans (V_main_arg3 m c),
      (((datsF m 0 c).toRForget_arrAt_iff (fgt := forgets) (w := 4) rfl _ _).mp ((h c).1 4)).trans
        (((datsF m 0 c).arrAt_in 4 rfl _).trans ((AF_eq m c 4).trans (V_main_arg4 m c)))⟩) (run_mainF m ρ)

end Cert.KernelIdeal.Body

end
-- ==== Proof.NamedData.lean ====
/-
  The same eight points with the output block NAMED: after the body at point `t` the output buffer holds the body's
  function of the five input blocks, the input block filled out with zeros past the array's end. The buffer really
  holds that function of whatever the fetch left past the end; the two agree on the columns inside the array, which
  are all the write-back moves, exactly when those columns of the output do not depend on the input's other columns.
-/
import proofs.«144712_g2000002658249619_pallasbulk_1049_14_alg».proof.Proof.FrameIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block's columns inside the array depend on the input block's columns inside the array only. -/
def ColInd (F : FTy → Type) [FloatOps F] : Prop :=
  ∀ (i : grid0.Coords) (X Y : Vec F S20x38400 .f32) (b1 : Vec F S20x256 .f32) (b2 : Vec F S1x256 .f32)
    (b3 : Vec F S10x256 .f32) (b4 : Vec F S1x10 .f32),
    win0_0.cut i X = win0_0.cut i Y → win0_5.cut i (out5 X b1 b2 b3 b4) = win0_5.cut i (out5 Y b1 b2 b3 b4)

/-- The output block at point `t`: the body's function of the point's input blocks. -/
def yblk (c : Dev nD) (t : Fin cfg0.N) : S10x38400.Idx → Elt F .f32 :=
  out5 (xblk m c t) (iblk m c 1 t) (iblk m c 2 t) (iblk m c 3 t) (iblk m c 4 t)

def dats (_ : Fin 1) (c : Dev nD) : Dat τ (Elt F) Unit ℕ (UR sig nD τ) ℕ cfg0 c where
  A w := V m c (Pipeline.arrRef spec0 w)
  after w t := match w with
    | ⟨0, _⟩ => xblk m c t
    | ⟨1, _⟩ => iblk m c 1 t
    | ⟨2, _⟩ => iblk m c 2 t
    | ⟨3, _⟩ => iblk m c 3 t
    | ⟨4, _⟩ => iblk m c 4 t
    | ⟨5, _⟩ => yblk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xblk m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = yblk m c t := by dsimp only [dats]

theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
/-- The output's buffer is fresh at every point: the point before wrote its block back. -/
theorem before_5 (c : Dev nD) (t : Fin cfg0.N) (d) : (dats m 0 c).before 5 t d = d :=
  (dats m 0 c).before_out_reset 5 rfl t
    (by by_cases h : t.val = 0
        · exact .inl h
        · exact .inr ⟨h, flush0_5 _⟩) d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare ((cfg0.win 5).fill (cfg0.grid.coords t) d ((cfg0.win 5).cut (cfg0.grid.coords t) ((dats m 0 c).after 5 t)))))

theorem sound_body (hind : ColInd F) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  have hx : (cfg0.win 0).cut (cfg0.grid.coords t) (xblk m c t) = iblk m c 0 t := win0_0.cut_fill _ _ _
  isplitl [H0]
  · iexists d0
    rw [hx]; iexact H0
  isplitl [H1]; · iexact H1
  isplitl [H2]; · iexact H2
  isplitl [H3]; · iexact H3
  isplitl [H4]; · iexact H4
  -- the output buffer holds the body's function of the block as fetched; on the columns the write-back moves this
  -- is the named block's
  have hc : win0_0.cut (grid0.coords t) (win0_0.fill (grid0.coords t) d0 (iblk m c 0 t)) = win0_0.cut (grid0.coords t) (xblk m c t) :=
    (win0_0.cut_fill _ _ _).trans (win0_0.cut_fill _ _ _).symm
  have hy := win0_5.fill_congr_cut (grid0.coords t)
    (hind (grid0.coords t) _ _ (iblk m c 1 t) (iblk m c 2 t) (iblk m c 3 t) (iblk m c 4 t) hc)
  iexists out5 (win0_0.fill (grid0.coords t) d0 (iblk m c 0 t)) (iblk m c 1 t) (iblk m c 2 t) (iblk m c 3 t) (iblk m c 4 t)
  change _ ⊢ owns (c : Thread nD τ) (st0_5 t) fullShare (win0_5.fill (grid0.coords t) _ (win0_5.cut (grid0.coords t) (yblk m c t)))
  unfold yblk
  rw [hy]; try iexact H5

theorem body_obligation (hind : ColInd F) (c : Dev nD) :
    BodyObligationLoose (dats (F := F) m 0 c) (defs₀ (F := F)) Variants.none () Set.univ := fun t => by
  rw [bigSep_W0, bigSep_W0]
  exact sound_body m hind c t

set_option backward.isDefEq.respectTransparency.types false in
/-- The run with every array of the region named: the result array at what the eight write-backs leave, every other
    buffer as the host operation after the region leaves it. -/
theorem run_main (hind : ColInd F) : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m hind c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Body

end
-- ==== Proof.HostLayout.lean ====
/-
  The three transposes the surrounding program performs, read entry by entry at the ideal values.

  Before the region the sample matrix (one sample per row) is turned into one sample per column, and the second
  weight matrix (one hidden unit per row) into one hidden unit per column; after the region the result, one sample
  per column, is turned back into one sample per row. Each of the three arrays, at an index, is its source at the
  index with the two coordinates exchanged.
-/
import proofs.«144712_g2000002658249619_pallasbulk_1049_14_alg».proof.Proof.Gen.KernelIdeal.Frame
import Idealize.ShloMosaic.Lib.ValueLayout
import Idealize.ShloMosaic.Lib.StableHlo.Run

set_option maxRecDepth 16384

noncomputable section

namespace Cert.HostLayout

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-- The sample matrix as the region finds it: the launched one, transposed. -/
theorem V_v0_eq (c : Dev nD) :
    (Gen.V m c main_v0 : S20x300000.Idx → EReal)
      = transpose S20x300000 [1, 0] (m ((c : Thread nD τ).loc main_arg0) : S300000x20.Idx → EReal)
          transposes_S300000x20_S20x300000_1_0 := by
  show StableHlo.after hostOps0 (fun b => m (c, b)) (Proc.devRef .tc main_v0) = _
  after_results

/-- Feature `k` of sample `s`, as the region finds it. -/
theorem V_v0_apply (c : Dev nD) (k : Fin 20) (s : Fin 300000) :
    (Gen.V m c main_v0 : S20x300000.Idx → EReal) (ix2 k s)
      = (m ((c : Thread nD τ).loc main_arg0) : S300000x20.Idx → EReal) (ix2 s k) := by
  rw [V_v0_eq]
  exact transpose_ix2_apply (a := 300000) (b := 20) _ _ k s

/-- The second weight matrix as the region finds it: the launched one, transposed. -/
theorem V_v1_eq (c : Dev nD) :
    (Gen.V m c main_v1 : S10x256.Idx → EReal)
      = transpose S10x256 [1, 0] (m ((c : Thread nD τ).loc main_arg3) : S256x10.Idx → EReal)
          transposes_S256x10_S10x256_1_0 := by
  show StableHlo.after hostOps0 (fun b => m (c, b)) (Proc.devRef .tc main_v1) = _
  after_results

/-- The weight from hidden unit `j` to output `o`, as the region finds it. -/
theorem V_v1_apply (c : Dev nD) (o : Fin 10) (j : Fin 256) :
    (Gen.V m c main_v1 : S10x256.Idx → EReal) (ix2 o j)
      = (m ((c : Thread nD τ).loc main_arg3) : S256x10.Idx → EReal) (ix2 j o) := by
  rw [V_v1_eq]
  exact transpose_ix2_apply (a := 256) (b := 10) _ _ o j

/-- The result as the program returns it: the region's output array — one sample per column, as the region leaves
    it — transposed. -/
theorem tail_v3_eq (dats : (p : Fin 1) → (c : Dev nD) → Pipeline.Dat τ (Elt Ideal) Unit ℕ (UR sig nD τ) ℕ (cfgs p) c)
    (c : Dev nD) :
    (Pipeline.afterTail₀ cfgs dats 0 (Gen.V0 m) [hostOps1] c main_v3 : S300000x10.Idx → EReal)
      = transpose S300000x10 [1, 0] ((dats 0 c).arrAt 5 cfg0.N : S10x300000.Idx → EReal)
          transposes_S10x300000_S300000x10_1_0 := by
  unfold Pipeline.afterTail₀
  show StableHlo.after hostOps1 _ (Proc.devRef .tc main_v3) = _
  after_results
  exact congrArg (fun x : S10x300000.Idx → EReal => transpose S300000x10 [1, 0] x transposes_S10x300000_S300000x10_1_0)
    (Pipeline.withArrays_arr spec0 launch0.win.arr_inj c _ _ 5)

/-- Output `o` of sample `s`, as the program returns it. -/
theorem tail_v3_apply (dats : (p : Fin 1) → (c : Dev nD) → Pipeline.Dat τ (Elt Ideal) Unit ℕ (UR sig nD τ) ℕ (cfgs p) c)
    (c : Dev nD) (s : Fin 300000) (o : Fin 10) :
    (Pipeline.afterTail₀ cfgs dats 0 (Gen.V0 m) [hostOps1] c main_v3 : S300000x10.Idx → EReal) (ix2 s o)
      = ((dats 0 c).arrAt 5 cfg0.N : S10x300000.Idx → EReal) (ix2 o s) := by
  rw [tail_v3_eq]
  exact transpose_ix2_apply (a := 10) (b := 300000) _ _ s o

end Cert.HostLayout

end
-- ==== Proof.Spec.lean ====
/-
  The multilayer perceptron both programs compute, as one function of the five argument arrays over the extended
  reals: sample `s` (a row of `x`, twenty features) goes to 256 hidden units
      hidden s j = max (Σ_{k<20} x[s,k] · w1[k,j] + b1[0,j]) 0
  and then to ten outputs
      out s o = Σ_{j<256} hidden s j · w2[j,o] + b2[0,o].
  Row `s` of the result depends on row `s` of `x` only: that is why neither the zero rows one program appends
  to `x` nor the unnamed columns past the array's end in the other program's last block reach any entry of the result.
-/
import Idealize.ShloMosaic.PureOps.Ideal
import Idealize.ShloMosaic.Lib.ValueIdx

noncomputable section

open scoped BigOperators

namespace Cert.MlpSpec

open Idealize.ShloMosaic Idealize.ShloMosaic.ValueIdx

/-- Hidden unit `j` of sample `s`: the affine form of the sample's twenty features, cut off below at zero. -/
def hidden (x : (⟨2, ![300000, 20]⟩ : Shape).Idx → EReal) (w1 : (⟨2, ![20, 256]⟩ : Shape).Idx → EReal)
    (b1 : (⟨2, ![1, 256]⟩ : Shape).Idx → EReal) (s : Fin 300000) (j : Fin 256) : EReal :=
  max ((∑ k : Fin 20, x (ix2 s k) * w1 (ix2 k j)) + b1 (ix2 (0 : Fin 1) j)) 0

/-- Output `o` of sample `s`: the affine form of its 256 hidden units. -/
def out (x : (⟨2, ![300000, 20]⟩ : Shape).Idx → EReal) (w1 : (⟨2, ![20, 256]⟩ : Shape).Idx → EReal)
    (b1 : (⟨2, ![1, 256]⟩ : Shape).Idx → EReal) (w2 : (⟨2, ![256, 10]⟩ : Shape).Idx → EReal)
    (b2 : (⟨2, ![1, 10]⟩ : Shape).Idx → EReal) (s : Fin 300000) (o : Fin 10) : EReal :=
  (∑ j : Fin 256, hidden x w1 b1 s j * w2 (ix2 j o)) + b2 (ix2 (0 : Fin 1) o)

/-- The whole result array, index by index. -/
def G (x : (⟨2, ![300000, 20]⟩ : Shape).Idx → EReal) (w1 : (⟨2, ![20, 256]⟩ : Shape).Idx → EReal)
    (b1 : (⟨2, ![1, 256]⟩ : Shape).Idx → EReal) (w2 : (⟨2, ![256, 10]⟩ : Shape).Idx → EReal)
    (b2 : (⟨2, ![1, 10]⟩ : Shape).Idx → EReal) : (⟨2, ![300000, 10]⟩ : Shape).Idx → EReal :=
  fun i => out x w1 b1 w2 b2 (i 0) (i 1)

end Cert.MlpSpec

end
-- ==== Proof.KernelValue.lean ====
/-
  The transposed kernel's run, read back: the region leaves the [10, 300000] array whose entry (o, s) is output o of
  sample s — the body's formula over column s of the transposed input, which is row s of the input, with the second
  weight matrix read transposed —, and the host transposition after the region turns it into the [300000, 10] result:
  the perceptron's function of the five arguments.
-/
import proofs.«144712_g2000002658249619_pallasbulk_1049_14_alg».proof.Proof.NamedData
import proofs.«144712_g2000002658249619_pallasbulk_1049_14_alg».proof.Proof.HostLayout
import proofs.«144712_g2000002658249619_pallasbulk_1049_14_alg».proof.Proof.Spec

set_option maxRecDepth 16384

noncomputable section

namespace Cert.KernelValue

open Cert.KernelIdeal Cert.KernelIdeal.Gen Cert.KernelIdeal.Body
open Idealize.ShloMosaic Idealize.ShloMosaic.TcCoe Idealize.ShloMosaic.ValueIdx Idealize.SL.Sem

variable (m : (ℓ : Loc nD τ sig) → Buf (Elt Ideal) ℓ) (ρ : Dev nD → PrngReg)

/-- The five arrays as the region finds them, as functions of two coordinates into the extended reals. -/
def xT (c : Dev nD) : S20x300000.Idx → EReal := V m c main_v0
def w1A (c : Dev nD) : S20x256.Idx → EReal := V m c main_arg1
def b1A (c : Dev nD) : S1x256.Idx → EReal := V m c main_arg2
def w2T (c : Dev nD) : S10x256.Idx → EReal := V m c main_v1
def b2A (c : Dev nD) : S1x10.Idx → EReal := V m c main_arg4

/-- Entry (o, s) of the array the region leaves, over the arrays as the region finds them. -/
def cellT (c : Dev nD) (o : Fin 10) (s : Fin 300000) : EReal :=
  (∑ j : Fin 256, max ((∑ k : Fin 20, xT m c (ix2 k s) * w1A m c (ix2 k j)) + b1A m c (ix2 (0 : Fin 1) j)) 0 * w2T m c (ix2 o j))
    + b2A m c (ix2 (0 : Fin 1) o)

/-- Over the launched arguments it is the perceptron's output o of sample s: the two host transpositions before the
    region undone. -/
theorem cellT_eq (c : Dev nD) (o : Fin 10) (s : Fin 300000) :
    cellT m c o s = Cert.MlpSpec.out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) s o := by
  unfold cellT xT w1A b1A w2T b2A Cert.MlpSpec.out Cert.MlpSpec.hidden
  simp only [Cert.HostLayout.V_v0_apply m c, Cert.HostLayout.V_v1_apply m c, V_main_arg1 m c, V_main_arg2 m c, V_main_arg4 m c]

/-- The kernel's run with its result named: under the two facts about the region's output — its columns inside the
    array depend on the input's columns inside the array only; the array it leaves is `cellT` entry by entry —, the
    result buffer ends at the perceptron's function of the arguments, which end as launched. -/
theorem run (hind : ColInd Ideal)
    (hfin : ∀ (c : Dev nD) (o : Fin 10) (s : Fin 300000),
      ((dats (F := Ideal) m 0 c).arrAt 5 cfg0.N : S10x300000.Idx → EReal) (ix2 o s) = cellT m c o s) :
    θ_run (defs (F := Ideal)) (onTc (τ := τ) (main (F := Ideal))) ⟨m, fun _ => 0, ρ⟩ (fun r => ∀ c : Dev nD,
      r.2.mem ((c.tc : Thread nD τ).loc main_v3)
        = Cert.MlpSpec.G (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_,
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c)))⟩)
    (Body.run_main m ρ hind)
  rw [(h c).2 main_v3 (Pipeline.mem_restRefs_of main_v3 (by decide) (by decide))]
  funext i
  obtain ⟨s, o, rfl⟩ : ∃ (s : Fin 300000) (o : Fin 10), i = ix2 s o := ⟨i 0, i 1, eq_ix2 i⟩
  refine (Cert.HostLayout.tail_v3_apply m (dats m) c s o).trans ?_
  rw [hfin c o s, cellT_eq]
  rfl

end Cert.KernelValue

end
-- ==== Proof.ChunkForms.lean ====
/-
  One 3200-column chunk of the transposed network is written out twelve times in the kernel function, with the
  loop-invariant operands (the weight matrix with the bias folded in, the second weight matrix, the output bias
  as a column, the row of ones) either passed in or spelled out again. All twelve are the same pure function of
  the chunk's twenty feature rows: each spelling unfolds to the first one.
-/
import proofs.«144712_g2000002658249619_pallasbulk_1049_14_alg».proof.Proof.Gen.KernelIdeal.Skeleton

noncomputable section

namespace Cert.ChunkForms

open Cert.KernelIdeal Cert.KernelIdeal.Gen Idealize.ShloMosaic

variable {F : FTy → Type} [FloatOps F]

/-- The first chunk, with the loop-invariant operands spelled from the four parameter blocks. -/
theorem pay8_eq (v0 : Vec F S20x256 .f32) (v1 : Vec F S1x256 .f32) (v4 : Vec F S10x256 .f32) (v6 : Vec F S1x10 .f32)
    (xs : Vec F S20x3200 .f32) :
    k0_pay8 v0 v1 v4 v6 xs = k0_pay1 (k0_pay4 v0 v1) (k0_pay5 v4) (k0_pay6 v6) (k0_pay7 (F := F)) xs := rfl

/-- The second chunk, spelled the same way. -/
theorem pay9_eq (v0 : Vec F S20x256 .f32) (v1 : Vec F S1x256 .f32) (v4 : Vec F S10x256 .f32) (v6 : Vec F S1x10 .f32)
    (xs : Vec F S20x3200 .f32) :
    k0_pay9 v0 v1 v4 v6 xs = k0_pay1 (k0_pay4 v0 v1) (k0_pay5 v4) (k0_pay6 v6) (k0_pay7 (F := F)) xs := rfl

/-- The third chunk: its features already stacked on the row of ones. -/
theorem pay11_eq (v3 : FVec F S256x21 .f32) (v5 : FVec F S10x256 .f32) (v7 : FVec F S10x1 .f32)
    (xs : Vec F S20x3200 .f32) :
    k0_pay11 v3 v5 v7 (k0_pay10 xs) = k0_pay1 v3 v5 v7 (k0_pay7 (F := F)) xs := rfl

theorem pay12_eq (v3 : FVec F S256x21 .f32) (v5 : FVec F S10x256 .f32) (v7 : FVec F S10x1 .f32)
    (v8 : FVec F S1x3200 .f32) (xs : Vec F S20x3200 .f32) :
    k0_pay12 v3 v5 v7 v8 xs = k0_pay1 v3 v5 v7 v8 xs := rfl

theorem pay13_eq (v3 : FVec F S256x21 .f32) (v5 : FVec F S10x256 .f32) (v7 : FVec F S10x1 .f32)
    (v8 : FVec F S1x3200 .f32) (xs : Vec F S20x3200 .f32) :
    k0_pay13 v3 v5 v7 v8 xs = k0_pay1 v3 v5 v7 v8 xs := rfl

/-- The sixth chunk: its hidden layer already computed, and the zero accumulator of the second product passed in. -/
theorem pay15_eq (v3 : FVec F S256x21 .f32) (v5 : FVec F S10x256 .f32) (v7 : FVec F S10x1 .f32)
    (v8 : FVec F S1x3200 .f32) (xs : Vec F S20x3200 .f32) :
    k0_pay15 v5 v7 (k0_pay14 v3 v8 xs) (constant S10x3200 .f32 0x00000000#32) = k0_pay1 v3 v5 v7 v8 xs := rfl

theorem pay16_eq (v3 : FVec F S256x21 .f32) (v5 : FVec F S10x256 .f32) (v7 : FVec F S10x1 .f32)
    (v8 : FVec F S1x3200 .f32) (xs : Vec F S20x3200 .f32) :
    k0_pay16 v3 v5 v7 v8 xs = k0_pay1 v3 v5 v7 v8 xs := rfl

theorem pay17_eq (v3 : FVec F S256x21 .f32) (v5 : FVec F S10x256 .f32) (v7 : FVec F S10x1 .f32)
    (v8 : FVec F S1x3200 .f32) (xs : Vec F S20x3200 .f32) :
    k0_pay17 v3 v5 v7 v8 xs = k0_pay1 v3 v5 v7 v8 xs := rfl

theorem pay18_eq (v3 : FVec F S256x21 .f32) (v5 : FVec F S10x256 .f32) (v7 : FVec F S10x1 .f32)
    (v8 : FVec F S1x3200 .f32) (xs : Vec F S20x3200 .f32) :
    k0_pay18 v3 v5 v7 v8 xs = k0_pay1 v3 v5 v7 v8 xs := rfl

theorem pay2_eq (v3 : FVec F S256x21 .f32) (v5 : FVec F S10x256 .f32) (v7 : FVec F S10x1 .f32)
    (v8 : FVec F S1x3200 .f32) (xs : Vec F S20x3200 .f32) :
    k0_pay2 v3 v5 v7 v8 xs = k0_pay1 v3 v5 v7 v8 xs := rfl

theorem pay3_eq (v3 : FVec F S256x21 .f32) (v5 : FVec F S10x256 .f32) (v7 : FVec F S10x1 .f32)
    (v8 : FVec F S1x3200 .f32) (xs : Vec F S20x3200 .f32) :
    k0_pay3 v3 v5 v7 v8 xs = k0_pay1 v3 v5 v7 v8 xs := rfl

end Cert.ChunkForms

end
-- ==== Proof.ChunkValue.lean ====
/-
  One 3200-column chunk of the transposed network, read entry by entry at the ideal values.

  The chunk stacks its twenty feature rows on a row of ones, multiplies the 256 × 21 matrix whose row `j` is
  column `j` of the first weight matrix followed by the hidden unit's bias, cuts the product off below at zero,
  multiplies by the 10 × 256 second weight matrix, and adds the output bias down each column. Each product is
  taken into an accumulator of zeros, so an entry of it is the plain sum over the contracted coordinate; the
  21-term sum of the first one is the twenty feature terms plus the bias times one. Only the commutativity of
  the product of extended reals is used, never distributivity.
-/
import proofs.«144712_g2000002658249619_pallasbulk_1049_14_alg».proof.Proof.Gen.KernelIdeal.Skeleton
import proofs.«144712_g2000002658249619_pallasbulk_1049_14_alg».proof.Proof.Spec
import Idealize.ShloMosaic.Lib.IdealHost
import Idealize.ShloMosaic.Lib.ValueLayout
import Idealize.ShloMosaic.Lib.Pipeline.Value

noncomputable section

open scoped BigOperators

namespace Cert.ChunkValue

open Cert.KernelIdeal Cert.KernelIdeal.Gen Idealize.ShloMosaic Idealize.ShloMosaic.ValueIdx

/-- A matrix product with no batch axis — rows by the contracted axis, times the contracted axis by columns —
    accumulated into zeros, read at an entry: the sum over the contracted coordinate of the products of the two
    entries. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The operands at an index -/

/-- Rows of the stacked chunk below the twentieth are the chunk's feature rows. -/
theorem stack_apply_lt (xs : Vec Ideal S20x3200 .f32) (ones : FVec Ideal S1x3200 .f32) (k : Fin 20) (q : Fin 3200) :
    concatenate S21x3200 0 [⟨S20x3200, shapeCast S20x3200 xs shapeCasts_S20x3200_S20x3200⟩, ⟨S1x3200, ones⟩]
        concatenates_S20x3200_S1x3200_S21x3200_d0 (ix2 (Fin.castSucc k : Fin 21) q) = xs (ix2 k q) := by
  rw [shapeCast_self]
  exact concatenate_pair_apply_left (t := S21x3200) (s₁ := S20x3200) (s₂ := S1x3200) 0 xs ones _ _ rfl (ix2 k q)
    fun b => match b with | ⟨0, _⟩ => rfl | ⟨1, _⟩ => rfl

/-- Its last row is the appended one. -/
theorem stack_apply_last (xs : Vec Ideal S20x3200 .f32) (ones : FVec Ideal S1x3200 .f32) (q : Fin 3200) :
    concatenate S21x3200 0 [⟨S20x3200, shapeCast S20x3200 xs shapeCasts_S20x3200_S20x3200⟩, ⟨S1x3200, ones⟩]
        concatenates_S20x3200_S1x3200_S21x3200_d0 (ix2 (Fin.last 20 : Fin 21) q) = ones (ix2 (0 : Fin 1) q) := by
  rw [shapeCast_self]
  exact concatenate_pair_apply_right (t := S21x3200) (s₁ := S20x3200) (s₂ := S1x3200) 0 xs ones _ _ rfl rfl
    (ix2 (0 : Fin 1) q)
    (fun b => match b with | ⟨0, _⟩ => fun h => absurd rfl h | ⟨1, _⟩ => fun _ => rfl) rfl

/-- Row `j` of the first factor, below its twentieth column, is column `j` of the first weight matrix. -/
theorem weights_apply_lt (v0 : Vec Ideal S20x256 .f32) (v1 : Vec Ideal S1x256 .f32) (j : Fin 256) (k : Fin 20) :
    k0_pay4 v0 v1 (ix2 j (Fin.castSucc k : Fin 21)) = v0 (ix2 k j) := by
  unfold k0_pay4
  refine (transpose_ix2_apply (a := 21) (b := 256) _ _ j (Fin.castSucc k : Fin 21)).trans ?_
  exact concatenate_pair_apply_left (t := S21x256) (s₁ := S20x256) (s₂ := S1x256) 0 v0 v1 _ _ rfl (ix2 k j)
    fun b => match b with | ⟨0, _⟩ => rfl | ⟨1, _⟩ => rfl

/-- Its last column is the hidden units' bias. -/
theorem weights_apply_last (v0 : Vec Ideal S20x256 .f32) (v1 : Vec Ideal S1x256 .f32) (j : Fin 256) :
    k0_pay4 v0 v1 (ix2 j (Fin.last 20 : Fin 21)) = v1 (ix2 (0 : Fin 1) j) := by
  unfold k0_pay4
  refine (transpose_ix2_apply (a := 21) (b := 256) _ _ j (Fin.last 20 : Fin 21)).trans ?_
  exact concatenate_pair_apply_right (t := S21x256) (s₁ := S20x256) (s₂ := S1x256) 0 v0 v1 _ _ rfl rfl
    (ix2 (0 : Fin 1) j)
    (fun b => match b with | ⟨0, _⟩ => fun h => absurd rfl h | ⟨1, _⟩ => fun _ => rfl) rfl

/-- The appended row holds the number one. -/
theorem ones_apply (q : Fin 3200) : k0_pay7 (F := Ideal) (ix2 (0 : Fin 1) q) = 1 := by
  show Ideal.ofBits .f32 0x3F800000#32 = 1
  exact Ideal.ofBits_one_f32

/-- The output bias, turned into a column and spread over the chunk's columns. -/
theorem bias_apply (v6 : Vec Ideal S1x10 .f32) (o : Fin 10) (q : Fin 3200) :
    broadcastTo S10x3200 (k0_pay6 v6) broadcasts_S10x1_S10x3200 (ix2 o q) = v6 (ix2 (0 : Fin 1) o) := by
  refine (broadcastTo_apply (s := S10x1) (t := S10x3200) (k0_pay6 v6) _ (ix2 o q) (ix2 o (0 : Fin 1)) fun ax => ?_).trans ?_
  · match ax with
    | ⟨0, _⟩ => rfl
    | ⟨1, _⟩ => rfl
  · unfold k0_pay6
    exact transpose_ix2_apply (a := 1) (b := 10) v6 _ o (0 : Fin 1)

/-! ## The two layers at an index -/

/-- The first product at row `j`, column `q`: the affine form of the column's twenty features, before the cut-off.
    The twenty-first term of the sum is the bias times the number one. -/
theorem affine_apply (v0 : Vec Ideal S20x256 .f32) (v1 : Vec Ideal S1x256 .f32) (xs : Vec Ideal S20x3200 .f32)
    (j : Fin 256) (q : Fin 3200) :
    matmul dot_S256x21_S21x3200_S256x3200_1_0_0_1_n_n none (k0_pay4 v0 v1)
        (concatenate S21x3200 0 [⟨S20x3200, shapeCast S20x3200 xs shapeCasts_S20x3200_S20x3200⟩,
          ⟨S1x3200, k0_pay7 (F := Ideal)⟩] concatenates_S20x3200_S1x3200_S21x3200_d0)
        (constant (F := Ideal) S256x3200 .f32 0x00000000#32) (ix2 j q)
      = (∑ k : Fin 20, xs (ix2 k q) * v0 (ix2 k j)) + v1 (ix2 (0 : Fin 1) j) := by
  refine (matmul_zero_apply Facts₀.dot_S256x21_S21x3200_S256x3200_1_0_0_1_n_n_wf none _ _ j q).trans ?_
  rw [Fin.sum_univ_castSucc, weights_apply_last, stack_apply_last, ones_apply, mul_one]
  refine congrArg (· + v1 (ix2 (0 : Fin 1) j)) (Finset.sum_congr rfl fun k _ => ?_)
  rw [weights_apply_lt, stack_apply_lt, mul_comm]

/-- The chunk's payload at output row `o`, column `q`. -/
theorem chunk_apply (v0 : Vec Ideal S20x256 .f32) (v1 : Vec Ideal S1x256 .f32) (v4 : Vec Ideal S10x256 .f32)
    (v6 : Vec Ideal S1x10 .f32) (xs : Vec Ideal S20x3200 .f32) (o : Fin 10) (q : Fin 3200) :
    k0_pay1 (k0_pay4 v0 v1) (k0_pay5 v4) (k0_pay6 v6) (k0_pay7 (F := Ideal)) xs (ix2 o q)
      = (∑ j : Fin 256, max ((∑ k : Fin 20, xs (ix2 k q) * v0 (ix2 k j)) + v1 (ix2 (0 : Fin 1) j)) 0 * v4 (ix2 o j))
        + v6 (ix2 (0 : Fin 1) o) := by
  unfold k0_pay1
  refine congrArg₂ (· + ·) ?_ (bias_apply v6 o q)
  refine (matmul_zero_apply Facts₀.dot_S10x256_S256x3200_S10x3200_1_0_0_1_n_n_wf none _ _ o q).trans ?_
  refine Finset.sum_congr rfl fun j _ => ?_
  rw [mul_comm]
  refine congrArg₂ (· * ·) ?_ ?_
  · show max (matmul dot_S256x21_S21x3200_S256x3200_1_0_0_1_n_n none (k0_pay4 v0 v1)
        (concatenate S21x3200 0 [⟨S20x3200, shapeCast S20x3200 xs shapeCasts_S20x3200_S20x3200⟩,
          ⟨S1x3200, k0_pay7 (F := Ideal)⟩] concatenates_S20x3200_S1x3200_S21x3200_d0)
        (constant (F := Ideal) S256x3200 .f32 0x00000000#32) (ix2 j q)) (Ideal.ofBits .f32 0x00000000#32) = _
    rw [affine_apply, Ideal.ofBits_zero_f32]
  · unfold k0_pay5
    rw [shapeCast_self]

end Cert.ChunkValue

end
-- ==== Proof.OutBlock.lean ====
/-
  The output block one grid point leaves, read entry by entry at the ideal values.

  The block's 38400 columns are written by twelve stores of 3200 columns each, and the store over the columns
  [c, c + 3200) holds the chunk function of the same columns of the input block. So the entry at row `o`,
  column `col` is the network's output `o` for the twenty features standing in column `col` of the input block,
  and it reads no other column: two input blocks that agree on the columns inside the array give output blocks
  that agree there, whatever the columns past the array's end hold.
-/
import proofs.«144712_g2000002658249619_pallasbulk_1049_14_alg».proof.Proof.BodyIdeal
import proofs.«144712_g2000002658249619_pallasbulk_1049_14_alg».proof.Proof.ChunkForms
import proofs.«144712_g2000002658249619_pallasbulk_1049_14_alg».proof.Proof.ChunkValue
import Idealize.ShloMosaic.Lib.Pipeline.Value
import Idealize.ShloMosaic.Lib.ValueIdx

set_option maxRecDepth 16384

noncomputable section

open scoped BigOperators

namespace Cert.OutBlock

open Cert.KernelIdeal Cert.KernelIdeal.Gen Cert.KernelIdeal.Body Cert.ChunkForms Cert.ChunkValue
open Idealize.ShloMosaic Idealize.ShloMosaic.ValueIdx

/-- The network's output for the features in one column of the input block, as a function of the output block's
    index: row `y 0` is the output unit, column `y 1` the sample. -/
def colVal (X : Vec Ideal S20x38400 .f32) (b1 : Vec Ideal S20x256 .f32) (b2 : Vec Ideal S1x256 .f32)
    (b3 : Vec Ideal S10x256 .f32) (b4 : Vec Ideal S1x10 .f32) (y : S10x38400.Idx) : EReal :=
  (∑ j : Fin 256, max ((∑ k : Fin 20, X (ix2 k (y 1)) * b1 (ix2 k j)) + b2 (ix2 (0 : Fin 1) j)) 0 * b3 (ix2 (y 0) j))
    + b4 (ix2 (0 : Fin 1) (y 0))

/-- Column `q` of the chunk that starts at column `c` of the input block is column `c + q` of the block. -/
theorem idx_in (c : Nat) (inb : ∀ a, (![0, c] : Fin 2 → Nat) a + S20x3200.size a ≤ S20x38400.size a)
    (k : Fin 20) (q : Fin 3200) (h : c + q.val < 38400) :
    (Rect.unit (s := S20x38400) ![0, c] S20x3200.size inb).idx (ix2 k q) = ix2 k (⟨c + q.val, h⟩ : Fin 38400) := by
  funext a; apply Fin.ext
  match a with
  | ⟨0, _⟩ => show 0 + 1 * k.val = k.val; omega
  | ⟨1, _⟩ => show c + 1 * q.val = c + q.val; omega

/-- The same for the output block. -/
theorem emb_out (c : Nat) (inb : ∀ a, (![0, c] : Fin 2 → Nat) a + S10x3200.size a ≤ S10x38400.size a)
    (o : Fin 10) (q : Fin 3200) (h : c + q.val < 38400) :
    (Rect.unit (s := S10x38400) ![0, c] S10x3200.size inb).emb (ix2 o q) = ix2 o (⟨c + q.val, h⟩ : Fin 38400) := by
  funext a; apply Fin.ext
  match a with
  | ⟨0, _⟩ => show 0 + 1 * o.val = o.val; omega
  | ⟨1, _⟩ => show c + 1 * q.val = c + q.val; omega

/-- The store over the columns from `c` on holds, at each of its entries, the network's output for the input
    block's column under it: the chunk function reads the four parameter blocks whole and column `q` of the chunk. -/
theorem piece_val (c : Nat) (inbx : ∀ a, (![0, c] : Fin 2 → Nat) a + S20x3200.size a ≤ S20x38400.size a)
    (inby : ∀ a, (![0, c] : Fin 2 → Nat) a + S10x3200.size a ≤ S10x38400.size a)
    (X : Vec Ideal S20x38400 .f32) (b1 : Vec Ideal S20x256 .f32) (b2 : Vec Ideal S1x256 .f32)
    (b3 : Vec Ideal S10x256 .f32) (b4 : Vec Ideal S1x10 .f32) (x : S10x3200.Idx) :
    k0_pay1 (k0_pay4 (View.ld b1 r_w1) (View.ld b2 r_b1)) (k0_pay5 (View.ld b3 r_w2)) (k0_pay6 (View.ld b4 r_b2))
        (k0_pay7 (F := Ideal)) (View.ld X (Rect.unit (s := S20x38400) ![0, c] S20x3200.size inbx)) x
      = colVal X b1 b2 b3 b4 ((Rect.unit (s := S10x38400) ![0, c] S10x3200.size inby).emb x) := by
  obtain ⟨o, q, rfl⟩ : ∃ (o : Fin 10) (q : Fin 3200), x = ix2 o q := ⟨x 0, x 1, eq_ix2 x⟩
  have hc : c + q.val < 38400 := by
    have h1 : c + 3200 ≤ 38400 := inby 1
    have := q.isLt
    omega
  rw [View.ld_unit_zero (by funext a; match a with | ⟨0, _⟩ => rfl | ⟨1, _⟩ => rfl) _ b1,
    View.ld_unit_zero (by funext a; match a with | ⟨0, _⟩ => rfl | ⟨1, _⟩ => rfl) _ b2,
    View.ld_unit_zero (by funext a; match a with | ⟨0, _⟩ => rfl | ⟨1, _⟩ => rfl) _ b3,
    View.ld_unit_zero (by funext a; match a with | ⟨0, _⟩ => rfl | ⟨1, _⟩ => rfl) _ b4,
    chunk_apply, emb_out c inby o q hc]
  unfold colVal
  refine congrArg (· + b4 (ix2 (0 : Fin 1) o)) (Finset.sum_congr rfl fun j _ => ?_)
  refine congrArg (fun t => max (t + b2 (ix2 (0 : Fin 1) j)) 0 * b3 (ix2 o j)) (Finset.sum_congr rfl fun k _ => ?_)
  exact congrArg (fun y => X y * b1 (ix2 k j)) (idx_in c inbx k q hc)

/-- The output block at row `o`, column `col`: the network's output `o` for column `col` of the input block. -/
theorem out5_apply (X : Vec Ideal S20x38400 .f32) (b1 : Vec Ideal S20x256 .f32) (b2 : Vec Ideal S1x256 .f32)
    (b3 : Vec Ideal S10x256 .f32) (b4 : Vec Ideal S1x10 .f32) (o : Fin 10) (col : Fin 38400) :
    out5 X b1 b2 b3 b4 (ix2 o col)
      = (∑ j : Fin 256, max ((∑ k : Fin 20, X (ix2 k col) * b1 (ix2 k j)) + b2 (ix2 (0 : Fin 1) j)) 0 * b3 (ix2 o j))
        + b4 (ix2 (0 : Fin 1) o) := by
  unfold out5
  refine View.canon_apply_of_pieces (Val := Elt Ideal) (e := .f32) (colVal X b1 b2 b3 b4) _ ?_ (ix2 o col) (cover5 _ _ _ _ _ _ _ _ _ _ _ _ (ix2 o col))
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h (List.not_mem_nil)⟩⟩⟩⟩⟩⟩⟩⟩⟩⟩⟩⟩
  · intro x
    exact (congrFun (pay3_eq _ _ _ _ _) x).trans (piece_val 35200 inb_S20x38400_S20x3200_0_35200 inb_S10x38400_S10x3200_0_35200 X b1 b2 b3 b4 x)
  · intro x
    exact (congrFun (pay2_eq _ _ _ _ _) x).trans (piece_val 32000 inb_S20x38400_S20x3200_0_32000 inb_S10x38400_S10x3200_0_32000 X b1 b2 b3 b4 x)
  · intro x
    exact piece_val 28800 inb_S20x38400_S20x3200_0_28800 inb_S10x38400_S10x3200_0_28800 X b1 b2 b3 b4 x
  · intro x
    exact (congrFun (pay18_eq _ _ _ _ _) x).trans (piece_val 25600 inb_S20x38400_S20x3200_0_25600 inb_S10x38400_S10x3200_0_25600 X b1 b2 b3 b4 x)
  · intro x
    exact (congrFun (pay17_eq _ _ _ _ _) x).trans (piece_val 22400 inb_S20x38400_S20x3200_0_22400 inb_S10x38400_S10x3200_0_22400 X b1 b2 b3 b4 x)
  · intro x
    exact (congrFun (pay16_eq _ _ _ _ _) x).trans (piece_val 19200 inb_S20x38400_S20x3200_0_19200 inb_S10x38400_S10x3200_0_19200 X b1 b2 b3 b4 x)
  · intro x
    exact (congrFun (pay15_eq _ _ _ _ _) x).trans (piece_val 16000 inb_S20x38400_S20x3200_0_16000 inb_S10x38400_S10x3200_0_16000 X b1 b2 b3 b4 x)
  · intro x
    exact (congrFun (pay13_eq _ _ _ _ _) x).trans (piece_val 12800 inb_S20x38400_S20x3200_0_12800 inb_S10x38400_S10x3200_0_12800 X b1 b2 b3 b4 x)
  · intro x
    exact (congrFun (pay12_eq _ _ _ _ _) x).trans (piece_val 9600 inb_S20x38400_S20x3200_0_9600 inb_S10x38400_S10x3200_0_9600 X b1 b2 b3 b4 x)
  · intro x
    exact (congrFun (pay11_eq _ _ _ _) x).trans (piece_val 6400 inb_S20x38400_S20x3200_0_6400 inb_S10x38400_S10x3200_0_6400 X b1 b2 b3 b4 x)
  · intro x
    exact (congrFun (pay9_eq _ _ _ _ _) x).trans (piece_val 3200 inb_S20x38400_S20x3200_0_3200 inb_S10x38400_S10x3200_0_3200 X b1 b2 b3 b4 x)
  · intro x
    exact (congrFun (pay8_eq _ _ _ _ _) x).trans (piece_val 0 inb_S20x38400_S20x3200_0_0 inb_S10x38400_S10x3200_0_0 X b1 b2 b3 b4 x)

/-! ## Only the columns inside the array matter -/

/-- Input blocks that agree on the part the fetch at point `i` moves agree at every entry whose column is inside
    that part (all twenty rows are: the fetch cuts the block along the columns only). -/
theorem in_eq_of_cut (i : grid0.Coords) (X Y : Vec Ideal S20x38400 .f32) (h : win0_0.cut i X = win0_0.cut i Y)
    (k : Fin 20) (c : Fin 38400) (hc : c.val < win0_0.xsize i 1) : X (ix2 k c) = Y (ix2 k c) := by
  have hk : ∀ a : Fin 2, (ix2 k c a).val < win0_0.xsize i a := fun a =>
    match a with
    | ⟨0, _⟩ => k.isLt
    | ⟨1, _⟩ => hc
  have e : win0_0.xinj i (fun a => ⟨(ix2 k c a).val, hk a⟩) = ix2 k c := funext fun a => Fin.ext rfl
  have hj := congrFun h (fun a => ⟨(ix2 k c a).val, hk a⟩)
  show X (ix2 k c) = Y (ix2 k c)
  rw [← e]
  exact hj

/-- Column `c` of the output block reads column `c` of the input block only: input blocks that agree on the part
    the fetch at point `i` moves give output blocks that agree at every column inside that part. -/
theorem out5_congr_at (i : grid0.Coords) (X Y : Vec Ideal S20x38400 .f32) (b1 : Vec Ideal S20x256 .f32)
    (b2 : Vec Ideal S1x256 .f32) (b3 : Vec Ideal S10x256 .f32) (b4 : Vec Ideal S1x10 .f32)
    (h : win0_0.cut i X = win0_0.cut i Y) (o : Fin 10) (c : Fin 38400) (hc : c.val < win0_0.xsize i 1) :
    out5 X b1 b2 b3 b4 (ix2 o c) = out5 Y b1 b2 b3 b4 (ix2 o c) := by
  rw [out5_apply, out5_apply]
  refine congrArg (· + b4 (ix2 (0 : Fin 1) o)) (Finset.sum_congr rfl fun j _ => ?_)
  refine congrArg (fun t => max (t + b2 (ix2 (0 : Fin 1) j)) 0 * b3 (ix2 o j)) (Finset.sum_congr rfl fun k _ => ?_)
  rw [in_eq_of_cut i X Y h k c hc]

/-- So the output blocks agree on the part the write-back at point `i` moves: the two windows are cut alike along
    the columns (one block index, one block width, one array length there) and not at all along the rows. -/
theorem out5_congr_cols (i : grid0.Coords) (X Y : Vec Ideal S20x38400 .f32) (b1 : Vec Ideal S20x256 .f32)
    (b2 : Vec Ideal S1x256 .f32) (b3 : Vec Ideal S10x256 .f32) (b4 : Vec Ideal S1x10 .f32)
    (h : win0_0.cut i X = win0_0.cut i Y) :
    win0_5.cut i (out5 X b1 b2 b3 b4) = win0_5.cut i (out5 Y b1 b2 b3 b4) := by
  funext j
  show out5 X b1 b2 b3 b4 (win0_5.xinj i j) = out5 Y b1 b2 b3 b4 (win0_5.xinj i j)
  obtain ⟨o, c, e, hcv⟩ : ∃ (o : Fin 10) (c : Fin 38400), win0_5.xinj i j = ix2 o c ∧ c.val = (j 1).val :=
    ⟨(win0_5.xinj i j) 0, (win0_5.xinj i j) 1, eq_ix2 _, rfl⟩
  have hj : (j 1).val < win0_0.xsize i 1 := (j 1).isLt
  have hc : c.val < win0_0.xsize i 1 := hcv ▸ hj
  exact (congrArg (out5 X b1 b2 b3 b4) e).trans
    ((out5_congr_at i X Y b1 b2 b3 b4 h o c hc).trans (congrArg (out5 Y b1 b2 b3 b4) e).symm)

end Cert.OutBlock

end
-- ==== Proof.OutArray.lean ====
/-
  From the eight output blocks to the whole result array, at the ideal values.

  Point `t` of the grid works on columns 38400·t … 38400·t + 38399 of the transposed sample matrix and writes the
  same columns of the transposed result; the eighth block runs past the array's end, and only its first 31200
  columns are fetched and written back. The two weight matrices and the two biases are staged whole at every
  point. So what point `t` writes back at row `o`, column `q` is the network's output `o` for sample
  38400·t + q, and every column of the [10, 300000] array lies in exactly one point's written part: the array ends
  holding the network's outputs, one sample per column.
-/
import proofs.«144712_g2000002658249619_pallasbulk_1049_14_alg».proof.Proof.NamedData
import proofs.«144712_g2000002658249619_pallasbulk_1049_14_alg».proof.Proof.OutBlock
import Idealize.ShloMosaic.Lib.Pipeline.Value
import Idealize.ShloMosaic.Lib.ValueIdx

set_option maxRecDepth 16384

noncomputable section

open scoped BigOperators

namespace Cert.OutArray

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The five arrays as the region finds them, and the array it should leave -/

/-- The sample matrix, one sample per column. -/
def xT (c : Dev nD) : S20x300000.Idx → EReal := V m c main_v0
/-- The first weight matrix. -/
def w1A (c : Dev nD) : S20x256.Idx → EReal := V m c main_arg1
/-- The hidden units' bias. -/
def b1A (c : Dev nD) : S1x256.Idx → EReal := V m c main_arg2
/-- The second weight matrix, one hidden unit per column. -/
def w2T (c : Dev nD) : S10x256.Idx → EReal := V m c main_v1
/-- The outputs' bias. -/
def b2A (c : Dev nD) : S1x10.Idx → EReal := V m c main_arg4

/-- Output `o` of sample `s`. -/
def cellT (c : Dev nD) (o : Fin 10) (s : Fin 300000) : EReal :=
  (∑ j : Fin 256, max ((∑ k : Fin 20, xT m c (ix2 k s) * w1A m c (ix2 k j)) + b1A m c (ix2 (0 : Fin 1) j)) 0
      * w2T m c (ix2 o j))
    + b2A m c (ix2 (0 : Fin 1) o)

/-- The transposed result: output `i 0` of sample `i 1`. -/
def GT (c : Dev nD) : S10x300000.Idx → EReal := fun i => cellT m c (i 0) (i 1)

/-! ## The index maps over the grid -/

/-- The sample window and the result window sit at block `t` along the columns and block 0 along the rows; the
    parameter windows at block 0 on both axes. Both column windows move all 38400 columns before the last point
    and 31200 at it; their rows are never cut. -/
theorem idx_facts : ∀ t : Fin cfg0.N,
    win0_0.index t (0 : Fin 2) = 0 ∧ win0_0.index t (1 : Fin 2) = t.val
    ∧ win0_5.index t (0 : Fin 2) = 0 ∧ win0_5.index t (1 : Fin 2) = t.val
    ∧ win0_0.xsize (grid0.coords t) (0 : Fin 2) = 20 ∧ win0_5.xsize (grid0.coords t) (0 : Fin 2) = 10
    ∧ win0_0.xsize (grid0.coords t) (1 : Fin 2) = win0_5.xsize (grid0.coords t) (1 : Fin 2)
    ∧ ((t.val < 7 ∧ win0_5.xsize (grid0.coords t) (1 : Fin 2) = 38400)
        ∨ (t.val = 7 ∧ win0_5.xsize (grid0.coords t) (1 : Fin 2) = 31200)) :=
  (by decide +kernel : ∀ t : Fin grid0.N, _)

theorem par_facts : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The blocks -/

/-- A parameter window's block is its whole array. -/
theorem iblk1_eq (c : Dev nD) (t : Fin cfg0.N) : (iblk m c 1 t : S20x256.Idx → EReal) = w1A m c := by
  obtain ⟨e0, e1, -⟩ := par_facts t
  funext j
  show V m c main_arg1 (((cfg0.win 1).blk t).view.emb j) = V m c main_arg1 j
  refine congrArg (V m c main_arg1) (funext fun a => Fin.ext ?_)
  match a with
  | ⟨0, _⟩ => show win0_1.index t (0 : Fin 2) * 20 + 1 * (j 0).val = (j 0).val; omega
  | ⟨1, _⟩ => show win0_1.index t (1 : Fin 2) * 256 + 1 * (j 1).val = (j 1).val; omega

theorem iblk2_eq (c : Dev nD) (t : Fin cfg0.N) : (iblk m c 2 t : S1x256.Idx → EReal) = b1A m c := by
  obtain ⟨-, -, e0, e1, -⟩ := par_facts t
  funext j
  show V m c main_arg2 (((cfg0.win 2).blk t).view.emb j) = V m c main_arg2 j
  refine congrArg (V m c main_arg2) (funext fun a => Fin.ext ?_)
  match a with
  | ⟨0, _⟩ => show win0_2.index t (0 : Fin 2) * 1 + 1 * (j 0).val = (j 0).val; omega
  | ⟨1, _⟩ => show win0_2.index t (1 : Fin 2) * 256 + 1 * (j 1).val = (j 1).val; omega

theorem iblk3_eq (c : Dev nD) (t : Fin cfg0.N) : (iblk m c 3 t : S10x256.Idx → EReal) = w2T m c := by
  obtain ⟨-, -, -, -, e0, e1, -⟩ := par_facts t
  funext j
  show V m c main_v1 (((cfg0.win 3).blk t).view.emb j) = V m c main_v1 j
  refine congrArg (V m c main_v1) (funext fun a => Fin.ext ?_)
  match a with
  | ⟨0, _⟩ => show win0_3.index t (0 : Fin 2) * 10 + 1 * (j 0).val = (j 0).val; omega
  | ⟨1, _⟩ => show win0_3.index t (1 : Fin 2) * 256 + 1 * (j 1).val = (j 1).val; omega

theorem iblk4_eq (c : Dev nD) (t : Fin cfg0.N) : (iblk m c 4 t : S1x10.Idx → EReal) = b2A m c := by
  obtain ⟨-, -, -, -, -, -, e0, e1⟩ := par_facts t
  funext j
  show V m c main_arg4 (((cfg0.win 4).blk t).view.emb j) = V m c main_arg4 j
  refine congrArg (V m c main_arg4) (funext fun a => Fin.ext ?_)
  match a with
  | ⟨0, _⟩ => show win0_4.index t (0 : Fin 2) * 1 + 1 * (j 0).val = (j 0).val; omega
  | ⟨1, _⟩ => show win0_4.index t (1 : Fin 2) * 10 + 1 * (j 1).val = (j 1).val; omega

/-- The sample block at point `t`, on a column the fetch moves: that column of the transposed sample matrix,
    38400·t columns further on. -/
theorem xblk_apply (c : Dev nD) (t : Fin cfg0.N) (k : Fin 20) (col : Fin 38400)
    (hcol : col.val < win0_0.xsize (grid0.coords t) (1 : Fin 2)) (s : Fin 300000) (hs : s.val = t.val * 38400 + col.val) :
    xblk m c t (ix2 k col) = xT m c (ix2 k s) := by
  obtain ⟨e0, e1, -, -, x0, -⟩ := idx_facts t
  have hm : win0_0.moved (grid0.coords t) (ix2 k col) = true :=
    (win0_0.moved_iff (grid0.coords t) (ix2 k col)).mpr fun a => match a with
      | ⟨0, _⟩ => (show k.val < win0_0.xsize (grid0.coords t) (0 : Fin 2) by rw [x0]; exact k.isLt)
      | ⟨1, _⟩ => hcol
  unfold xblk Pipeline.Window.fill
  rw [dif_pos hm]
  show V m c main_v0 (((cfg0.win 0).blk t).view.emb _) = V m c main_v0 (ix2 k s)
  refine congrArg (V m c main_v0) (funext fun a => Fin.ext ?_)
  match a with
  | ⟨0, _⟩ => show win0_0.index t (0 : Fin 2) * 20 + 1 * k.val = k.val; omega
  | ⟨1, _⟩ => show win0_0.index t (1 : Fin 2) * 38400 + 1 * col.val = s.val; omega

/-! ## What a point writes back -/

/-- WHAT POINT `t` WRITES BACK is its block of the transposed result, cut at the array's end: on the columns the
    write-back moves the output block reads the sample block's columns inside the array only. -/
theorem flushed5_eq
    (hout : ∀ (X : Vec Ideal S20x38400 .f32) (b1 : Vec Ideal S20x256 .f32) (b2 : Vec Ideal S1x256 .f32)
      (b3 : Vec Ideal S10x256 .f32) (b4 : Vec Ideal S1x10 .f32) (o : Fin 10) (col : Fin 38400),
      out5 X b1 b2 b3 b4 (ix2 o col)
        = (∑ j : Fin 256, max ((∑ k : Fin 20, X (ix2 k col) * b1 (ix2 k j)) + b2 (ix2 (0 : Fin 1) j)) 0 * b3 (ix2 o j))
          + b4 (ix2 (0 : Fin 1) o))
    (c : Dev nD) (t : Fin cfg0.N) :
    (dats m 0 c).flushed 5 t = ((cfg0.win 5).blk t).view.read (Elt Ideal) (GT m c) := by
  obtain ⟨-, -, e0, e1, -, y0, xy, hx⟩ := idx_facts t
  funext j
  -- the entry's row and column in the block, and its column in the array
  have h0 : (j 0).val < win0_5.xsize (grid0.coords t) (0 : Fin 2) := (j 0).isLt
  have h1 : (j 1).val < win0_5.xsize (grid0.coords t) (1 : Fin 2) := (j 1).isLt
  obtain ⟨o, ho⟩ : ∃ o : Fin 10, o.val = (j 0).val := ⟨⟨(j 0).val, by omega⟩, rfl⟩
  obtain ⟨col, hc⟩ : ∃ col : Fin 38400, col.val = (j 1).val := ⟨⟨(j 1).val, by omega⟩, rfl⟩
  obtain ⟨s, hs⟩ : ∃ s : Fin 300000, s.val = t.val * 38400 + col.val := ⟨⟨t.val * 38400 + col.val, by omega⟩, rfl⟩
  have hj : (win0_5.xinj (grid0.coords t) j : S10x38400.Idx) = ix2 o col := by
    funext a; apply Fin.ext
    match a with
    | ⟨0, _⟩ => exact ho.symm
    | ⟨1, _⟩ => exact hc.symm
  have hi : (((cfg0.win 5).blk t).view.emb j : S10x300000.Idx) = ix2 o s := by
    funext a; apply Fin.ext
    match a with
    | ⟨0, _⟩ => show win0_5.index t (0 : Fin 2) * 10 + 1 * (j 0).val = o.val; omega
    | ⟨1, _⟩ => show win0_5.index t (1 : Fin 2) * 38400 + 1 * (j 1).val = s.val; omega
  show (dats m 0 c).after 5 t (win0_5.xinj (grid0.coords t) j) = GT m c (((cfg0.win 5).blk t).view.emb j)
  rw [after_5, hj, hi]
  unfold yblk
  rw [hout, iblk1_eq, iblk2_eq, iblk3_eq, iblk4_eq]
  show _ = cellT m c o s
  unfold cellT
  have hcol : col.val < win0_0.xsize (grid0.coords t) (1 : Fin 2) := by omega
  simp only [fun k => xblk_apply m c t k col hcol s hs]

/-! ## The written parts cover the array -/

/-- An index of the result array is in point `t`'s written part iff each coordinate is within it on its axis. -/
theorem mem_blk5 (t : Fin cfg0.N) (i : S10x300000.Idx) :
    i ∈ ((cfg0.win 5).blk t).view.set ↔ ∀ a : Fin 2, win0_5.index t a * S10x38400.size a ≤ (i a).val
      ∧ (i a).val < win0_5.index t a * S10x38400.size a + win0_5.xsize (grid0.coords t) a := by
  show i ∈ ((View.whole main_v2).slice (win0_5.rect t)).set ↔ _
  rw [View.set_slice_whole, Rect.mem_set_unit]
  exact Iff.rfl

/-- Column `s` lies in the part point `s / 38400` writes. -/
theorem covered5 (i : S10x300000.Idx) :
    ∃ t : Fin cfg0.N, (cfg0.win 5).flush t = true ∧ i ∈ ((cfg0.win 5).blk t).view.set := by
  have hi0 : (i 0).val < 10 := (i 0).isLt
  have hi1 : (i 1).val < 300000 := (i 1).isLt
  have hN : cfg0.N = 8 := N_0
  obtain ⟨t, ht⟩ : ∃ t : Fin cfg0.N, t.val = (i 1).val / 38400 :=
    ⟨⟨(i 1).val / 38400, (by omega : (i 1).val / 38400 < 8).trans_eq hN.symm⟩, rfl⟩
  obtain ⟨-, -, e0, e1, -, y0, -, hx⟩ := idx_facts t
  refine ⟨t, flush0_5 t, ?_⟩
  rw [mem_blk5]
  intro a
  match a with
  | ⟨0, _⟩ =>
    show win0_5.index t (0 : Fin 2) * 10 ≤ (i 0).val ∧ (i 0).val < win0_5.index t (0 : Fin 2) * 10 + win0_5.xsize (grid0.coords t) (0 : Fin 2)
    omega
  | ⟨1, _⟩ =>
    show win0_5.index t (1 : Fin 2) * 38400 ≤ (i 1).val ∧ (i 1).val < win0_5.index t (1 : Fin 2) * 38400 + win0_5.xsize (grid0.coords t) (1 : Fin 2)
    omega

/-! ## The result array after the region -/

/-- THE RESULT ARRAY the region leaves, given the output block entry by entry. -/
theorem final5_of
    (hout : ∀ (X : Vec Ideal S20x38400 .f32) (b1 : Vec Ideal S20x256 .f32) (b2 : Vec Ideal S1x256 .f32)
      (b3 : Vec Ideal S10x256 .f32) (b4 : Vec Ideal S1x10 .f32) (o : Fin 10) (col : Fin 38400),
      out5 X b1 b2 b3 b4 (ix2 o col)
        = (∑ j : Fin 256, max ((∑ k : Fin 20, X (ix2 k col) * b1 (ix2 k j)) + b2 (ix2 (0 : Fin 1) j)) 0 * b3 (ix2 o j))
          + b4 (ix2 (0 : Fin 1) o))
    (c : Dev nD) :
    ((dats (F := Ideal) m 0 c).arrAt 5 cfg0.N : S10x300000.Idx → EReal) = GT m c :=
  (dats m 0 c).arrAt_eq_of_cover 5 (GT m c) (fun t _ => flushed5_eq m hout c t) (covered5)

/-- THE RESULT ARRAY the region leaves: the network's outputs, one sample per column. -/
theorem final5 (c : Dev nD) :
    ((dats (F := Ideal) m 0 c).arrAt 5 cfg0.N : S10x300000.Idx → EReal) = GT m c :=
  final5_of m Cert.OutBlock.out5_apply c

/-- The same, entry by entry. -/
theorem final5_apply (c : Dev nD) (o : Fin 10) (s : Fin 300000) :
    ((dats (F := Ideal) m 0 c).arrAt 5 cfg0.N : S10x300000.Idx → EReal) (ix2 o s)
      = (∑ j : Fin 256, max ((∑ k : Fin 20, xT m c (ix2 k s) * w1A m c (ix2 k j)) + b1A m c (ix2 (0 : Fin 1) j)) 0
          * w2T m c (ix2 o j))
        + b2A m c (ix2 (0 : Fin 1) o) := by
  rw [final5]
  rfl

end Cert.OutArray

end
-- ==== Proof.RefPayload.lean ====
/-
  One block of samples through the body of the one region: what it stores at row `r`, output `o` is the
  perceptron's output for the sample in row `r` of the block.

  The perceptron of the specification, written over ONE sample given as its twenty features (`rowHidden`,
  `rowOut`), is what a block's row goes through whichever array the block was cut from; the
  specification's `out` is `rowOut` of a row of `x` by definition.
-/
import proofs.«144712_g2000002658249619_pallasbulk_1049_14_alg».proof.Proof.Gen.ReferenceIdeal.Skeleton
import proofs.«144712_g2000002658249619_pallasbulk_1049_14_alg».proof.Proof.Spec
import Idealize.ShloMosaic.Lib.ValueIdx
import Idealize.ShloMosaic.Lib.Pipeline.Value
import Idealize.ShloMosaic.PureOps.Ideal.Laws

noncomputable section

open scoped BigOperators

namespace Cert.RefValue

open Idealize.ShloMosaic Idealize.ShloMosaic.ValueIdx
open Cert.ReferenceIdeal Cert.ReferenceIdeal.Gen

/-! ## The perceptron over one sample -/

/-- Hidden unit `j` of a sample given as its twenty features: their affine form, cut off below at zero. -/
def rowHidden (xr : Fin 20 → EReal) (w1 : S20x256.Idx → EReal) (b1 : S1x256.Idx → EReal) (j : Fin 256) : EReal :=
  max ((∑ k : Fin 20, xr k * w1 (ix2 k j)) + b1 (ix2 (0 : Fin 1) j)) 0

/-- Output `o` of that sample: the affine form of its 256 hidden units. -/
def rowOut (xr : Fin 20 → EReal) (w1 : S20x256.Idx → EReal) (b1 : S1x256.Idx → EReal) (w2 : S256x10.Idx → EReal)
    (b2 : S1x10.Idx → EReal) (o : Fin 10) : EReal :=
  (∑ j : Fin 256, rowHidden xr w1 b1 j * w2 (ix2 j o)) + b2 (ix2 (0 : Fin 1) o)

/-- The specification's output for sample `s` is `rowOut` of row `s` of `x`. -/
theorem out_eq_rowOut (x : S300000x20.Idx → EReal) (w1 : S20x256.Idx → EReal) (b1 : S1x256.Idx → EReal)
    (w2 : S256x10.Idx → EReal) (b2 : S1x10.Idx → EReal) (s : Fin 300000) (o : Fin 10) :
    Cert.MlpSpec.out x w1 b1 w2 b2 s o = rowOut (fun k => x (ix2 s k)) w1 b1 w2 b2 o := rfl

/-- `rowOut` depends on the sample through its features only. -/
theorem rowOut_congr {xr xr' : Fin 20 → EReal} (h : ∀ k, xr k = xr' k) (w1 : S20x256.Idx → EReal) (b1 : S1x256.Idx → EReal)
    (w2 : S256x10.Idx → EReal) (b2 : S1x10.Idx → EReal) (o : Fin 10) : rowOut xr w1 b1 w2 b2 o = rowOut xr' w1 b1 w2 b2 o := by
  rw [show xr = xr' from funext h]

/-! ## The two products read at an index -/

/-- The first product, samples by first-layer weights, into the zero accumulator: entry `(r, j)` is the sum over the
    twenty features of row `r`'s feature times the weight to hidden unit `j`. -/
theorem mm1_apply (A : FVec Ideal S1024x20 .f32) (B : FVec Ideal S20x256 .f32) (r : Fin 1024) (j : Fin 256) :
    matmul dot_S1024x20_S20x256_S1024x256_1_0_0_1_n_n none A B (constant (F := Ideal) S1024x256 .f32 0x00000000#32) (ix2 r j)
      = ∑ k : Fin 20, A (ix2 r k) * B (ix2 k j) := by
  show FloatOps.matmul _ none A B (constant (F := Ideal) S1024x256 .f32 0x00000000#32) (ix2 r j) = _
  rw [Ideal.matmul_constant_zero_apply,
    ← Equiv.sum_comp (contrEquiv1 dot_S1024x20_S20x256_S1024x256_1_0_0_1_n_n 20 rfl rfl).symm]
  refine Finset.sum_congr rfl fun c _ => ?_
  have c2 := contrEquiv1_symm_val dot_S1024x20_S20x256_S1024x256_1_0_0_1_n_n 20 rfl rfl c
  have l2 : dot_S1024x20_S20x256_S1024x256_1_0_0_1_n_n.lhsIdx (ix2 r j) ((contrEquiv1 _ 20 rfl rfl).symm c) = ix2 r c := by
    funext ax; apply Fin.ext
    match ax with
    | ⟨0, _⟩ => simp [DotDims.lhsIdx, dot_S1024x20_S20x256_S1024x256_1_0_0_1_n_n]; rfl
    | ⟨1, _⟩ => simp [DotDims.lhsIdx, dot_S1024x20_S20x256_S1024x256_1_0_0_1_n_n]; exact c2
  have r2 : dot_S1024x20_S20x256_S1024x256_1_0_0_1_n_n.rhsIdx (ix2 r j) ((contrEquiv1 _ 20 rfl rfl).symm c) = ix2 c j := by
    funext ax; apply Fin.ext
    match ax with
    | ⟨0, _⟩ => simp [DotDims.rhsIdx, dot_S1024x20_S20x256_S1024x256_1_0_0_1_n_n]; exact c2
    | ⟨1, _⟩ => simp [DotDims.rhsIdx, dot_S1024x20_S20x256_S1024x256_1_0_0_1_n_n]; rfl
  rw [l2, r2]

/-- The second product, hidden units by second-layer weights, into the zero accumulator: entry `(r, o)` is the sum
    over the 256 hidden units of row `r`'s unit times the weight to output `o`. -/
theorem mm2_apply (A : FVec Ideal S1024x256 .f32) (B : FVec Ideal S256x10 .f32) (r : Fin 1024) (o : Fin 10) :
    matmul dot_S1024x256_S256x10_S1024x10_1_0_0_1_n_n none A B (constant (F := Ideal) S1024x10 .f32 0x00000000#32) (ix2 r o)
      = ∑ j : Fin 256, A (ix2 r j) * B (ix2 j o) := by
  show FloatOps.matmul _ none A B (constant (F := Ideal) S1024x10 .f32 0x00000000#32) (ix2 r o) = _
  rw [Ideal.matmul_constant_zero_apply,
    ← Equiv.sum_comp (contrEquiv1 dot_S1024x256_S256x10_S1024x10_1_0_0_1_n_n 256 rfl rfl).symm]
  refine Finset.sum_congr rfl fun c _ => ?_
  have c2 := contrEquiv1_symm_val dot_S1024x256_S256x10_S1024x10_1_0_0_1_n_n 256 rfl rfl c
  have l2 : dot_S1024x256_S256x10_S1024x10_1_0_0_1_n_n.lhsIdx (ix2 r o) ((contrEquiv1 _ 256 rfl rfl).symm c) = ix2 r c := by
    funext ax; apply Fin.ext
    match ax with
    | ⟨0, _⟩ => simp [DotDims.lhsIdx, dot_S1024x256_S256x10_S1024x10_1_0_0_1_n_n]; rfl
    | ⟨1, _⟩ => simp [DotDims.lhsIdx, dot_S1024x256_S256x10_S1024x10_1_0_0_1_n_n]; exact c2
  have r2 : dot_S1024x256_S256x10_S1024x10_1_0_0_1_n_n.rhsIdx (ix2 r o) ((contrEquiv1 _ 256 rfl rfl).symm c) = ix2 c o := by
    funext ax; apply Fin.ext
    match ax with
    | ⟨0, _⟩ => simp [DotDims.rhsIdx, dot_S1024x256_S256x10_S1024x10_1_0_0_1_n_n]; exact c2
    | ⟨1, _⟩ => simp [DotDims.rhsIdx, dot_S1024x256_S256x10_S1024x10_1_0_0_1_n_n]; rfl
  rw [l2, r2]

/-! ## The two bias rows spread over the block's rows -/

/-- The first bias, one row of 256, spread over the 1024 rows: entry `(r, j)` is the bias of hidden unit `j`. -/
theorem bias1_apply (b : S1x256.Idx → EReal) (r : Fin 1024) (j : Fin 256) :
    broadcastTo S1024x256 b broadcasts_S1x256_S1024x256 (ix2 r j) = b (ix2 (0 : Fin 1) j) :=
  broadcastTo_apply b broadcasts_S1x256_S1024x256 (ix2 r j) (ix2 (0 : Fin 1) j) (fun a => by
    match a with
    | ⟨0, _⟩ => rfl
    | ⟨1, _⟩ => rfl)

/-- The second bias, one row of 10, spread over the 1024 rows: entry `(r, o)` is the bias of output `o`. -/
theorem bias2_apply (b : S1x10.Idx → EReal) (r : Fin 1024) (o : Fin 10) :
    broadcastTo S1024x10 b broadcasts_S1x10_S1024x10 (ix2 r o) = b (ix2 (0 : Fin 1) o) :=
  broadcastTo_apply b broadcasts_S1x10_S1024x10 (ix2 r o) (ix2 (0 : Fin 1) o) (fun a => by
    match a with
    | ⟨0, _⟩ => rfl
    | ⟨1, _⟩ => rfl)

/-! ## The body's stored value at a row and an output -/

/-- What the body stores, read at row `r` and output `o` of the block: the perceptron's output `o` for the sample in
    row `r` of the loaded block of samples. -/
theorem pay_apply (x0 : Vec Ideal S1024x20 .f32) (v2 : Vec Ideal S20x256 .f32) (v4 : Vec Ideal S1x256 .f32)
    (v9 : Vec Ideal S256x10 .f32) (v11 : Vec Ideal S1x10 .f32) (r : Fin 1024) (o : Fin 10) :
    k0_pay1 x0 v2 v4 v9 v11 (ix2 r o) = rowOut (fun k => x0 (ix2 r k)) v2 v4 v9 v11 o := by
  unfold k0_pay1 rowOut
  refine (addf_apply _ _ (ix2 r o)).trans ?_
  refine congrArg₂ (· + ·) ((mm2_apply _ v9 r o).trans ?_) (bias2_apply v11 r o)
  refine Finset.sum_congr rfl fun j _ => congrArg (· * v9 (ix2 j o)) ?_
  unfold rowHidden
  refine (maximumf_apply _ _ (ix2 r j)).trans ?_
  refine congrArg₂ max ((addf_apply _ _ (ix2 r j)).trans ?_) Ideal.ofBits_zero_f32
  refine congrArg₂ (· + ·) ((mm1_apply _ v2 r j).trans ?_) (bias1_apply v4 r j)
  rw [shapeCast_self]

end Cert.RefValue

end
-- ==== Proof.RefArray.lean ====
/-
  From blocks to the array: the padded result array after the one region.

  The region walks 293 points; point `t` reads rows `1024 t … 1024 t + 1023` of the padded sample array (every
  other operand whole) and writes the same rows of the padded result. Row by row the body computes the perceptron
  of that row (RefPayload.lean), so the padded result ends holding, at row `i` and output `o`, the perceptron's
  output `o` for row `i` of the padded samples — `padOut`. The 293 blocks of 1024 rows tile the 300032 rows exactly:
  row `i` is in the block of point `i / 1024`.
-/
import proofs.«144712_g2000002658249619_pallasbulk_1049_14_alg».proof.Proof.Gen.ReferenceIdeal.Frame
import proofs.«144712_g2000002658249619_pallasbulk_1049_14_alg».proof.Proof.RefPayload
import Idealize.ShloMosaic.Lib.Pipeline.Value

noncomputable section

open scoped BigOperators

namespace Cert.RefValue

open Idealize.ShloMosaic Idealize.ShloMosaic.TcCoe Idealize.ShloMosaic.ValueIdx Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

theorem zero_offsets : (![0, 0] : Fin 2 → Nat) = fun _ => 0 := funext fun a => by fin_cases a <;> rfl

/-! ## The padded result as one function of the region's operands -/

/-- The perceptron applied to every row of a padded sample array: entry `(i, o)` is output `o` for row `i`. -/
def padOut (xp : S300032x20.Idx → EReal) (w1 : S20x256.Idx → EReal) (b1 : S1x256.Idx → EReal) (w2 : S256x10.Idx → EReal)
    (b2 : S1x10.Idx → EReal) : S300032x10.Idx → EReal :=
  fun i => rowOut (fun k => xp (ix2 (i 0) k)) w1 b1 w2 b2 (i 1)

/-- A block of 1024 rows that holds rows `1024 q …` of the padded samples goes, through the body, to the same rows
    of `padOut`: entry `y` of what the body stores is entry `i` of `padOut` whenever `i` is `y` moved down `q` blocks. -/
theorem pay_eq_padOut (xp : S300032x20.Idx → EReal) (w1 : S20x256.Idx → EReal) (b1 : S1x256.Idx → EReal)
    (w2 : S256x10.Idx → EReal) (b2 : S1x10.Idx → EReal) (x0 : S1024x20.Idx → EReal) (y : S1024x10.Idx) (i : S300032x10.Idx)
    (hx : ∀ k : Fin 20, x0 (ix2 (y 0) k) = xp (ix2 (i 0) k)) (ho : y 1 = i 1) :
    k0_pay1 (F := Ideal) x0 w1 b1 w2 b2 y = padOut xp w1 b1 w2 b2 i := by
  obtain ⟨r, o, rfl⟩ : ∃ (r : Fin 1024) (o : Fin 10), y = ix2 r o := ⟨y 0, y 1, eq_ix2 y⟩
  refine (pay_apply x0 w1 b1 w2 b2 r o).trans ?_
  unfold padOut
  rw [← show o = i 1 from ho]
  exact rowOut_congr hx w1 b1 w2 b2 o

/-! ## The index maps, decided over the grid -/

/-- At point `t` the sample window and the result window are at block row `t`, column block 0; the four
    parameter windows are at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The blocks the body reads at a point -/

/-- The first-layer weights' block is the whole array. -/
theorem blk_w1 (c : Dev nD) (t : Fin cfg0.N) : iblk m c 1 t = V m c main_arg1 := by
  obtain ⟨-, -, e0, e1, -⟩ := index_facts t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 20 + 1 * (y 0).val = (y 0).val; omega
  | ⟨1, _⟩ => show win0_1.index t (1 : Fin 2) * 256 + 1 * (y 1).val = (y 1).val; omega

/-- The first-layer bias's block is the whole array. -/
theorem blk_b1 (c : Dev nD) (t : Fin cfg0.N) : iblk m c 2 t = V m c main_arg2 := by
  obtain ⟨-, -, -, -, e0, e1, -⟩ := index_facts t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- The second-layer weights' block is the whole array. -/
theorem blk_w2 (c : Dev nD) (t : Fin cfg0.N) : iblk m c 3 t = V m c main_arg3 := by
  obtain ⟨-, -, -, -, -, -, e0, e1, -⟩ := index_facts t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 256 + 1 * (y 0).val = (y 0).val; omega
  | ⟨1, _⟩ => show win0_3.index t (1 : Fin 2) * 10 + 1 * (y 1).val = (y 1).val; omega

/-- The second-layer bias's block is the whole array. -/
theorem blk_b2 (c : Dev nD) (t : Fin cfg0.N) : iblk m c 4 t = V m c main_arg4 := by
  obtain ⟨-, -, -, -, -, -, -, -, e0, e1, -⟩ := index_facts t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 1 + 1 * (y 0).val = (y 0).val; omega
  | ⟨1, _⟩ => show win0_4.index t (1 : Fin 2) * 10 + 1 * (y 1).val = (y 1).val; omega

/-- Row `r` of the sample block at point `t` is the row of the padded samples that row `r` of the result block at `t`
    sits on. -/
theorem blk_x (c : Dev nD) (t : Fin cfg0.N) (y : S1024x10.Idx) (k : Fin 20) :
    iblk m c 0 t (ix2 (y 0) k) = V m c main_v0 (ix2 ((((cfg0.win 5).blk t).view.emb y) 0) k) := by
  obtain ⟨e0, e1, -, -, -, -, -, -, -, -, e10, e11⟩ := index_facts t
  show V m c main_v0 (((cfg0.win 0).blk t).view.emb (ix2 (y 0) k)) = _
  refine congrArg (V m c main_v0) (funext fun a => Fin.ext ?_)
  match a with
  | ⟨0, _⟩ => show win0_0.index t (0 : Fin 2) * 1024 + 1 * (y 0).val = win0_5.index t (0 : Fin 2) * 1024 + 1 * (y 0).val; omega
  | ⟨1, _⟩ => show win0_0.index t (1 : Fin 2) * 20 + 1 * k.val = k.val; omega

/-! ## What a point writes back -/

/-- Point `t` writes back block `t` of `padOut` of the region's operands as it finds them. -/
theorem flushed_eq (c : Dev nD) (t : Fin cfg0.N) :
    (dats m 0 c).flushed 5 t = ((cfg0.win 5).blk t).view.read (Elt Ideal)
      (padOut (V m c main_v0) (V m c main_arg1) (V m c main_arg2) (V m c main_arg3) (V m c main_arg4)) := by
  show (cfg0.win 5).cut (grid0.coords t) ((dats m 0 c).after 5 t) = _
  rw [after0_5]
  unfold out0_5
  rw [View.canon_unit_zero zero_offsets]
  simp only [View.ld_unit_zero (S := S1024x20) zero_offsets, View.ld_unit_zero (S := S20x256) zero_offsets,
    View.ld_unit_zero (S := S1x256) zero_offsets, View.ld_unit_zero (S := S256x10) zero_offsets,
    View.ld_unit_zero (S := S1x10) zero_offsets]
  rw [blk_w1 m c t, blk_b1 m c t, blk_w2 m c t, blk_b2 m c t]
  obtain ⟨-, -, -, -, -, -, -, -, -, -, e10, e11⟩ := index_facts t
  funext y
  show k0_pay1 (iblk m c 0 t) (V m c main_arg1) (V m c main_arg2) (V m c main_arg3) (V m c main_arg4) y
    = padOut (V m c main_v0) (V m c main_arg1) (V m c main_arg2) (V m c main_arg3) (V m c main_arg4) (((cfg0.win 5).blk t).view.emb y)
  refine pay_eq_padOut (V m c main_v0) (V m c main_arg1) (V m c main_arg2) (V m c main_arg3) (V m c main_arg4) (iblk m c 0 t) y
    (((cfg0.win 5).blk t).view.emb y) (fun k => blk_x m c t y k) (Fin.ext ?_)
  show (y 1).val = win0_5.index t (1 : Fin 2) * 10 + 1 * (y 1).val
  omega

/-! ## The cover -/

/-- An index of the padded result is in point `t`'s block iff each coordinate is in the block's range on its axis. -/
theorem mem_blk (t : Fin cfg0.N) (i : S300032x10.Idx) :
    i ∈ ((cfg0.win 5).blk t).view.set ↔ ∀ a : Fin 2, win0_5.index t a * S1024x10.size a ≤ (i a).val ∧ (i a).val < win0_5.index t a * S1024x10.size a + S1024x10.size a := by
  show i ∈ ((View.whole main_v1).slice (win0_5.rect t)).set ↔ _
  rw [View.set_slice_whole, Rect.mem_set_unit]
  exact Iff.rfl

/-- Every index of the padded result is in the block of the point its row falls in: row `i` in that of point `i / 1024`. -/
theorem covered (i : S300032x10.Idx) : ∃ t : Fin cfg0.N, (cfg0.win 5).flush t = true ∧ i ∈ ((cfg0.win 5).blk t).view.set := by
  have hi0 : (i 0).val < 300032 := (i 0).isLt
  have hi1 : (i 1).val < 10 := (i 1).isLt
  have hN : cfg0.N = 293 := N_0
  let t : Fin cfg0.N := ⟨(i 0).val / 1024, by rw [hN]; omega⟩
  obtain ⟨-, -, -, -, -, -, -, -, -, -, e10, e11⟩ := index_facts t
  have ht : t.val = (i 0).val / 1024 := rfl
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 10 ≤ (i 1).val ∧ (i 1).val < win0_5.index t (1 : Fin 2) * 10 + 10; omega

/-! ## The padded result after the region -/

/-- After the last point the padded result holds `padOut` of the region's operands. -/
theorem final (c : Dev nD) : (dats m 0 c).arrAt 5 cfg0.N
    = padOut (V m c main_v0) (V m c main_arg1) (V m c main_arg2) (V m c main_arg3) (V m c main_arg4) :=
  (dats m 0 c).arrAt_eq_of_cover 5 _ (fun t _ => flushed_eq m c t) covered

end Cert.RefValue

end
-- ==== Proof.RefRun.lean ====
/-
  The reference's result: the perceptron of the specification, sample by sample.

  Before the region the program appends 32 zero rows to the samples (rows below 300000 of the padded array are the
  samples' rows); after it, it keeps rows 0 … 299999 of the padded result. Row `s` of the padded result is the
  perceptron of row `s` of the padded samples (RefArray.lean), hence, for `s` below 300000, of sample `s`: the
  appended rows reach no kept row.
-/
import proofs.«144712_g2000002658249619_pallasbulk_1049_14_alg».proof.Proof.RefArray
import Idealize.ShloMosaic.Lib.KernelVsHost
import Idealize.ShloMosaic.Lib.StableHlo.Run

noncomputable section

open scoped BigOperators

namespace Cert.RefValue

open Idealize.ShloMosaic Idealize.ShloMosaic.TcCoe Idealize.ShloMosaic.ValueIdx Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

/-! ## The padded samples -/

/-- The padded sample array as the region finds it: the samples with 32 rows of the converted constant appended. -/
theorem padded_eq (c : Dev nD) : (V m c main_v0 : S300032x20.Idx → EReal)
    = pad S300032x20 ![0, 0] ![32, 0] ![0, 0] (m ((c : Thread nD τ).loc main_arg0))
        (sitofp (F := Ideal) .f32 (constantI S_ 32 0#32)) pads_S300000x20_S300032x20_0320_000 h_S_ := by
  dsimp only [Gen.V, Gen.V0]
  simp only [Gen.hostOps0, Gen.hostOps0_1, List.flatten_cons, List.flatten_nil, List.append_nil, List.cons_append,
    List.nil_append]
  after_results
  rfl

/-- Below row 300000 the padded samples are the samples. -/
theorem padded_row (c : Dev nD) (s : Fin 300000) (k : Fin 20) (i0 : Fin 300032) (h : i0.val = s.val) :
    V m c main_v0 (ix2 i0 k) = m ((c : Thread nD τ).loc main_arg0) (ix2 s k) := by
  rw [padded_eq]
  refine pad_apply_of_inside _ _ _ _ _ _ _ (ix2 i0 k) (ix2 s k) fun a => ?_
  match a with
  | ⟨0, _⟩ => show i0.val = 0 + s.val * (0 + 1); omega
  | ⟨1, _⟩ => show k.val = 0 + k.val * (0 + 1); omega

/-! ## The kept rows -/

/-- The result buffer after the line that follows the region: rows 0 … 299999 of the padded result after the region. -/
theorem tail_eq (c : Dev nD) : Pipeline.afterTail₀ cfgs (dats m) 0 (V0 m) [hostOps1] c main_v2
    = extractStridedSlice S300000x10 ![0, 0] ((dats m 0 c).arrAt 5 cfg0.N) slices_S300032x10_S300000x10_0_0 := by
  unfold Pipeline.afterTail₀
  show StableHlo.after hostOps1 _ (Proc.devRef .tc main_v2) = _
  after_results
  exact congrArg (fun X => extractStridedSlice S300000x10 ![0, 0] X slices_S300032x10_S300000x10_0_0)
    (Pipeline.withArrays_arr spec0 launch0.win.arr_inj c _ _ 5)

/-- `rowOut` of a sample's features, at parameters equal to the specification's, is the specification's output. -/
theorem rowOut_eq_out (x : S300000x20.Idx → EReal) (w1 w1' : S20x256.Idx → EReal) (b1 b1' : S1x256.Idx → EReal)
    (w2 w2' : S256x10.Idx → EReal) (b2 b2' : S1x10.Idx → EReal) (xr : Fin 20 → EReal) (s : Fin 300000) (o : Fin 10)
    (hx : ∀ k, xr k = x (ix2 s k)) (h1 : w1' = w1) (h2 : b1' = b1) (h3 : w2' = w2) (h4 : b2' = b2) :
    rowOut xr w1' b1' w2' b2' o = Cert.MlpSpec.out x w1 b1 w2 b2 s o := by
  subst h1 h2 h3 h4
  exact (rowOut_congr hx w1' b1' w2' b2' o).trans (out_eq_rowOut x w1' b1' w2' b2' s o).symm

/-- It is the specification's result of the arguments as launched. -/
theorem result_eq (c : Dev nD) : Pipeline.afterTail₀ cfgs (dats m) 0 (V0 m) [hostOps1] c main_v2
    = Cert.MlpSpec.G (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  rw [tail_eq, final]
  funext i
  obtain ⟨s, o, rfl⟩ : ∃ (s : Fin 300000) (o : Fin 10), i = ix2 s o := ⟨i 0, i 1, eq_ix2 i⟩
  have hs : s.val < 300000 := s.isLt
  refine (extractStridedSlice_apply ![0, 0] _ slices_S300032x10_S300000x10_0_0 (ix2 s o) (ix2 (⟨s.val, by omega⟩ : Fin 300032) o) fun a => ?_).trans ?_
  · match a with
    | ⟨0, _⟩ => show s.val = 0 + s.val; omega
    | ⟨1, _⟩ => show o.val = 0 + o.val; omega
  exact rowOut_eq_out (m ((c.tc : Thread nD τ).loc main_arg0)) (m ((c.tc : Thread nD τ).loc main_arg1)) (V m c main_arg1)
    (m ((c.tc : Thread nD τ).loc main_arg2)) (V m c main_arg2) (m ((c.tc : Thread nD τ).loc main_arg3)) (V m c main_arg3)
    (m ((c.tc : Thread nD τ).loc main_arg4)) (V m c main_arg4) (fun k => V m c main_v0 (ix2 (⟨s.val, by omega⟩ : Fin 300032) k)) s o
    (fun k => padded_row m c s k ⟨s.val, by omega⟩ rfl) (V_main_arg1 m c) (V_main_arg2 m c) (V_main_arg3 m c) (V_main_arg4 m c)

/-! ## The run -/

/-- From any memory with zero counters the reference terminates with its result buffer at the specification's result
    of the arguments, and the arguments as launched. -/
theorem run : θ_run (defs (F := Ideal)) (onTc (τ := τ) (main (F := Ideal))) ⟨m, fun _ => 0, ρ⟩ (fun r => ∀ c : Dev nD,
      r.2.mem ((c.tc : Thread nD τ).loc main_v2)
        = Cert.MlpSpec.G (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.RefValue

end
-- ==== Proof.lean ====
/-
  The claim: a multilayer perceptron y = max(x·w1 + b1, 0)·w2 + b2 over 300000 samples, computed two ways, agrees
  over the extended reals, and each program runs to the end leaving its arguments as launched.
  The kernel works transposed, batch on the long axis: it walks the 300000 columns of xᵀ in eight blocks of 38400
  (the last one reaching 7200 columns past the array's end, which nothing names and nothing that is kept reads),
  folds the first bias into the first product as a twenty-first term against a row of ones, and transposes the
  result back. The reference appends 32 zero rows to x, works row blocks of 1024, and drops the 32 rows again.
  Both results are, entry by entry, one function of the arguments (Spec): sample s's output o depends on row s of
  x only, so neither the appended rows nor the unnamed columns reach it; the twenty-one-term sum is the twenty-term
  sum plus b1·1; the products commute. No law beyond the commutative monoid laws of + and · on the extended reals
  is used, so the finiteness of the inputs is never opened.
  Frames: the kernel's two readings share one body run on six buffers of arbitrary contents (twelve stores that tile
  the output block) and one set of proof data that leaves the output unnamed; the reference's frame is its generated
  one. The idealization rewrote nothing, so that conjunct is trivial.
-/
import proofs.«144712_g2000002658249619_pallasbulk_1049_14_alg».proof.Defs
import proofs.«144712_g2000002658249619_pallasbulk_1049_14_alg».proof.Proof.Gen.Kernel
import proofs.«144712_g2000002658249619_pallasbulk_1049_14_alg».proof.Proof.Gen.Kernel.Skeleton
import proofs.«144712_g2000002658249619_pallasbulk_1049_14_alg».proof.Proof.Gen.Kernel.Launch
import proofs.«144712_g2000002658249619_pallasbulk_1049_14_alg».proof.Proof.Gen.Kernel.Points
import proofs.«144712_g2000002658249619_pallasbulk_1049_14_alg».proof.Proof.Gen.Kernel.Frame
import proofs.«144712_g2000002658249619_pallasbulk_1049_14_alg».proof.Proof.Gen.KernelIdeal
import proofs.«144712_g2000002658249619_pallasbulk_1049_14_alg».proof.Proof.Gen.KernelIdeal.Skeleton
import proofs.«144712_g2000002658249619_pallasbulk_1049_14_alg».proof.Proof.Gen.KernelIdeal.Launch
import proofs.«144712_g2000002658249619_pallasbulk_1049_14_alg».proof.Proof.Gen.KernelIdeal.Points
import proofs.«144712_g2000002658249619_pallasbulk_1049_14_alg».proof.Proof.Gen.KernelIdeal.Frame
import proofs.«144712_g2000002658249619_pallasbulk_1049_14_alg».proof.Proof.Gen.ReferenceIdeal
import proofs.«144712_g2000002658249619_pallasbulk_1049_14_alg».proof.Proof.Gen.ReferenceIdeal.Skeleton
import proofs.«144712_g2000002658249619_pallasbulk_1049_14_alg».proof.Proof.Gen.ReferenceIdeal.Launch
import proofs.«144712_g2000002658249619_pallasbulk_1049_14_alg».proof.Proof.Gen.ReferenceIdeal.Points
import proofs.«144712_g2000002658249619_pallasbulk_1049_14_alg».proof.Proof.Gen.ReferenceIdeal.Frame
import proofs.«144712_g2000002658249619_pallasbulk_1049_14_alg».proof.Proof.Gen.Pre_finite_inputs
import proofs.«144712_g2000002658249619_pallasbulk_1049_14_alg».proof.Proof.FrameBits
import proofs.«144712_g2000002658249619_pallasbulk_1049_14_alg».proof.Proof.FrameIdeal
import proofs.«144712_g2000002658249619_pallasbulk_1049_14_alg».proof.Proof.KernelValue
import proofs.«144712_g2000002658249619_pallasbulk_1049_14_alg».proof.Proof.OutBlock
import proofs.«144712_g2000002658249619_pallasbulk_1049_14_alg».proof.Proof.OutArray
import proofs.«144712_g2000002658249619_pallasbulk_1049_14_alg».proof.Proof.RefRun
import Idealize.ShloMosaic.Adequacy
import Idealize.ShloMosaic.Init

noncomputable section

namespace Cert.Proof

open Idealize.ShloMosaic Idealize.ShloMosaic.ValueIdx Idealize.SL.Sem

/-- The word-level kernel runs and keeps its arguments. -/
theorem frame_kernel : Cert.frame_Kernel := fun m ρ _ => Cert.Kernel.Body.frameF m ρ

/-- So does its reading over the extended reals. -/
theorem frame_kernel_ideal : Cert.frame_KernelIdeal := fun m ρ _ => Cert.KernelIdeal.Body.frameF m ρ

/-- And the reference. -/
theorem frame_reference : Cert.frame_ReferenceIdeal := fun m ρ _ => Cert.ReferenceIdeal.Gen.frame m ρ

/-- The idealization rewrote no operation. -/
theorem preserves : Cert.preserves_Kernel_KernelIdeal := trivial

/-- Over the extended reals a column of the output block is a function of the same column of the input block. -/
theorem col_ind : Cert.KernelIdeal.Body.ColInd Ideal :=
  fun i X Y b1 b2 b3 b4 h => Cert.OutBlock.out5_congr_cols i X Y b1 b2 b3 b4 h

/-- Both programs end with the perceptron's function of the arguments in their result buffers. -/
theorem algebraic : Cert.algebraic_KernelIdeal_ReferenceIdeal := by
  intro m ρ m' ρ' _ hagree
  refine ⟨_, Cert.KernelValue.run m ρ col_ind (fun c o s => Cert.OutArray.final5_apply m c o s), ?_⟩
  refine (θ_run Cert.ReferenceIdeal.defs _ _).mono (fun r h c => ?_) (Cert.RefValue.run m' ρ')
  obtain ⟨h0, h1, h2, h3, h4, h5⟩ := h c
  obtain ⟨e0, e1, e2, e3, e4⟩ := hagree c
  exact ⟨by rw [h0, e0, e1, e2, e3, e4], h1, h2, h3, h4, h5⟩

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
